-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x1024 : Shape := ⟨2, ![8192, 1024]⟩
abbrev S1024x4096 : Shape := ⟨2, ![1024, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S8192x1024 .f32) (main_arg2 : FVec F S1024x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S8192x1024 : Shape := ⟨2, ![8192, 1024]⟩
abbrev S1024x4096 : Shape := ⟨2, ![1024, 4096]⟩
abbrev S4096 : Shape := ⟨1, ![4096]⟩
abbrev S1x4096 : Shape := ⟨2, ![1, 4096]⟩
abbrev S8192 : Shape := ⟨1, ![8192]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x8192 : Shape := ⟨2, ![1, 8192]⟩
abbrev S1 : Shape := ⟨1, ![1]⟩
abbrev S1x1 : Shape := ⟨2, ![1, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S1024x4096, .f32⟩
  | .hbm, ⟨3, _⟩ => ⟨S4096, .f32⟩
  | .hbm, ⟨4, _⟩ => ⟨S1024x4096, .bf16⟩
  | .hbm, ⟨5, _⟩ => ⟨S1x4096, .f32⟩
  | .hbm, ⟨6, _⟩ => ⟨S8192, .f32⟩
  | .hbm, ⟨7, _⟩ => ⟨S8192, .f32⟩
  | .hbm, ⟨8, _⟩ => ⟨S8192, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S8192, .f32⟩
  | .local _ .vmem, ⟨11, _⟩ => ⟨S8192, .f32⟩
  | .local _ .vmem, ⟨12, _⟩ => ⟨S8192, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  inb_S256_S256_0 : ∀ a, (![0] : Fin 1 → Nat) a + S256.size a ≤ S256.size a
  h_S256 : 0 < S256.numel
  inb_S8192_S8192_0 : ∀ a, (![0] : Fin 1 → Nat) a + S8192.size a ≤ S8192.size a
  h_S8192 : 0 < S8192.numel
  shapeCasts_S8192_S8192 : S8192.ShapeCasts S8192
  shapeCasts_S8192_S1x8192 : S8192.ShapeCasts S1x8192
  reduces_S1x8192_S1 : S1x8192.Reduces [1] S1
  shapeCasts_S1_S1x1 : S1.ShapeCasts S1x1
  inpos_S1x1_p0_0 : ∀ a, (![0, 0] : Fin 2 → Nat) a < S1x1.size a
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S8192.size a
  hwx0_4 : ∀ i : grid0.Coords, EltTy.bits .f32 = 32 ∨ (Rect.block (s := S8192) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S8192.size a
  hwx0_5 : ∀ i : grid0.Coords, EltTy.bits .f32 = 32 ∨ (Rect.block (s := S8192) S256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S8192.size a
  hwx1_0 : ∀ i : grid1.Coords, EltTy.bits .f32 = 32 ∨ (Rect.block (s := S8192) S8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S8192.size a
  hwx1_1 : ∀ i : grid1.Coords, EltTy.bits .f32 = 32 ∨ (Rect.block (s := S8192) S8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192.size a ≤ S8192.size a
  hwx1_2 : ∀ i : grid1.Coords, EltTy.bits .f32 = 32 ∨ (Rect.block (s := S8192) S8192.size (cc1_transform_2 i) (hinb1_2 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8192.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S8192x1024 : Shape := ⟨2, ![8192, 1024]⟩
abbrev S1024x4096 : Shape := ⟨2, ![1024, 4096]⟩
abbrev S4096 : Shape := ⟨1, ![4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S1 : Shape := ⟨1, ![1]⟩

abbrev nBuf : Space → Nat
  | .hbm => 64
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S1024x4096, .f32⟩
  | .hbm, ⟨3, _⟩ => ⟨S4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S1, .f32⟩
  | .hbm, ⟨57, _⟩ => ⟨S8192, .f32⟩
  | .hbm, ⟨58, _⟩ => ⟨S8192, .f32⟩
  | .hbm, ⟨59, _⟩ => ⟨S8192x1, .f32⟩
  | .hbm, ⟨60, _⟩ => ⟨S8192x4096, .f32⟩
  | .hbm, ⟨61, _⟩ => ⟨S8192x4096, .f32⟩
  | .hbm, ⟨62, _⟩ => ⟨S_, .f32⟩
  | .hbm, ⟨63, _⟩ => ⟨S8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S8192x1 : S_.BroadcastsInDim S8192x1 (![] : Fin 0 → Fin S8192x1.rank)
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.KernelRun.lean ====
/- The idealized kernel's run with its result named.

   Every weakly fair execution of the two launches terminates without a fault; afterwards the argument arrays are as
   launched and the result array holds what the second launch's write-back leaves: the contents of the last segment
   boundary of the run, read at the result's buffer. -/
import proofs.«105674_j2783138808152_2_alg».proof.Proof.Gen.KernelIdeal.Frame

set_option maxRecDepth 16384

noncomputable section

namespace Cert.ReadHead.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the two launches: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.ReadHead.Run

end
-- ==== Proof.Spec.lean ====
/- The two programs as closed formulas over the extended reals.

   A row of logits `l` is shifted by its maximum and exponentiated; against a row `μ` of the memory the kernel forms
   the negated cosine similarity from three sums and two reciprocal square roots, while the reference first divides
   the exponentials by their sum (a softmax), then normalizes each row by the square root of its clamped sum of
   squares, multiplies and sums. Over the rows, both apply one more softmax to the similarities; the kernel scales
   the row's weight by the row sum of the memory, the reference sums the weighted row. -/
import Idealize.ShloMosaic.PureOps.Ideal

noncomputable section

open Idealize.ShloMosaic

namespace Cert.ReadHead

variable {ι κ : Type} [Fintype ι] [Fintype κ]

/-- The maximum of a finite family of extended reals, taken from the bottom. -/
def vmax (f : ι → EReal) : EReal := (Finset.univ : Finset ι).fold max ⊥ f

/-- A family shifted by its maximum and exponentiated: the numerator of a softmax. -/
def shiftExp (l : ι → EReal) (c : ι) : EReal := Ideal.exp (l c - vmax l)

/-- The kernel's similarity of a row of logits `l` and a row of memory `μ`: minus the inner product of the
    exponentials with `μ`, times the reciprocal square roots of the two clamped sums of squares. -/
def simK (eps : EReal) (l μ : ι → EReal) : EReal :=
  0 - ((∑ c, shiftExp l c * μ c) * Ideal.rsqrt (max (∑ c, shiftExp l c * shiftExp l c) eps))
        * Ideal.rsqrt (max (∑ c, μ c * μ c) eps)

/-- The softmax of a family: each exponential over their sum. -/
def softmax (l : ι → EReal) (c : ι) : EReal := Ideal.div (shiftExp l c) (∑ c', shiftExp l c')

/-- A family divided by the square root of its clamped sum of squares. -/
def l2n (eps : EReal) (x : ι → EReal) (c : ι) : EReal := Ideal.div (x c) (Ideal.sqrt (max (∑ c', x c' * x c') eps))

/-- The reference's similarity: minus the inner product of the two normalized rows. -/
def simR (eps : EReal) (l μ : ι → EReal) : EReal :=
  -(∑ c, l2n eps (softmax l) c * l2n eps μ c)

/-- The kernel's result at row `r`: the row's softmax weight among all similarities, times the row sum of the memory. -/
def outK (eps : EReal) (L M : κ → ι → EReal) (r : κ) : EReal :=
  softmax (fun r' => simK eps (L r') (M r')) r * ∑ c, M r c

/-- The reference's result at row `r`: the sum along the row of the memory scaled by the row's softmax weight. -/
def outR (eps : EReal) (L M : κ → ι → EReal) (r : κ) : EReal :=
  ∑ c, softmax (fun r' => simR eps (L r') (M r')) r * M r c

end Cert.ReadHead

end
-- ==== Proof.Result.lean ====
/- The closed formulas at this problem's extents: 8192 rows, 4096 columns, a contraction over 1024.

   The logit at (r, c) is the inner product of row r of the controller output with column c of the weight, plus the
   bias at c; the memory's row r is read along its columns; the clamp is the single-precision pattern both programs
   use for it. The kernel's and the reference's results are the two formulas of the specification at these rows. -/
import proofs.«105674_j2783138808152_2_alg».proof.Proof.Spec
import Idealize.ShloMosaic.Lib.ValueIdx

noncomputable section

open Idealize.ShloMosaic Idealize.ShloMosaic.ValueIdx

namespace Cert.ReadHead

/-- The clamp under both square roots: the single-precision value nearest 10⁻¹². -/
def eps : EReal := Ideal.ofBits .f32 0x2B8CBCCC#32

/-- The logit at row `r` and column `c`: the contraction over the 1024 features, plus the bias. -/
def logit (co : FVec Ideal ⟨2, ![8192, 1024]⟩ .f32) (W : FVec Ideal ⟨2, ![1024, 4096]⟩ .f32) (b : FVec Ideal ⟨1, ![4096]⟩ .f32)
    (r : Fin 8192) (c : Fin 4096) : EReal :=
  (∑ k : Fin 1024, co (ix2 r k) * W (ix2 k c)) + b (ix1 c)

/-- The memory at row `r` and column `c`. -/
def memAt (mem : FVec Ideal ⟨2, ![8192, 4096]⟩ .f32) (r : Fin 8192) (c : Fin 4096) : EReal := mem (ix2 r c)

/-- The kernel's result array as one function of the four argument arrays. -/
def resultK (mem : FVec Ideal ⟨2, ![8192, 4096]⟩ .f32) (co : FVec Ideal ⟨2, ![8192, 1024]⟩ .f32)
    (W : FVec Ideal ⟨2, ![1024, 4096]⟩ .f32) (b : FVec Ideal ⟨1, ![4096]⟩ .f32) : FVec Ideal ⟨1, ![8192]⟩ .f32 :=
  fun i => outK eps (logit co W b) (memAt mem) (i 0)

/-- The reference's result array as one function of the four argument arrays. -/
def resultR (mem : FVec Ideal ⟨2, ![8192, 4096]⟩ .f32) (co : FVec Ideal ⟨2, ![8192, 1024]⟩ .f32)
    (W : FVec Ideal ⟨2, ![1024, 4096]⟩ .f32) (b : FVec Ideal ⟨1, ![4096]⟩ .f32) : FVec Ideal ⟨1, ![8192]⟩ .f32 :=
  fun i => outR eps (logit co W b) (memAt mem) (i 0)

end Cert.ReadHead

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibMaxFold.lean ====
/- General facts about maxima over a finite family of extended reals taken from the bottom, and about the two
   maximum-reductions that compute them: a vector maximum-reduction and a host maximum-reduction along one axis, each
   started from the pattern of -infinity. Nothing here depends on a particular program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MaxFold

/-- The f32 pattern of -infinity denotes the bottom of the extended reals. -/
theorem ofBits_neg_inf : Ideal.ofBits .f32 0xFF800000#32 = ⊥ := by
  simp [Ideal.ofBits, Ideal.ieee]

/-- The maximum of a finite family taken from the bottom lies below an extended real iff every member does: the
    maximum by its universal property, with no order of folding in it. -/
theorem fold_max_univ_le {ι : Type} [Fintype ι] (f : ι → EReal) (x : EReal) :
    (Finset.univ : Finset ι).fold max ⊥ f ≤ x ↔ ∀ k, f k ≤ x := by
  rw [Finset.fold_max_le]
  simp

/-- A vector maximum-reduction along ONE axis from the pattern of -infinity, read on the extended reals at a reduced
    index `j`: the maximum, from the bottom, over that axis's coordinates of the source at `j` with the coordinate
    inserted. The hypotheses are typed as a printed body's proof arguments are. -/
theorem maxRed_apply {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j
      = (Finset.univ : Finset (Fin (s.size a))).fold max ⊥ (src ∘ h.lift j) := by
  rw [Ideal.multiReduction_maximumf_single]
  show Finset.fold max (Ideal.ofBits .f32 0xFF800000#32) _ _ = _
  rw [ofBits_neg_inf]

/-- The host's one-operand reduction with a maximum body along ONE axis from the constant -infinity, read on the
    extended reals at a reduced index `j`: the same maximum. -/
theorem hostMaxRed_apply {s t u : Shape} {a : Fin s.rank} (x : FVec Ideal s .f32) (h' : s.ReducesTo [a] t) (h : s.Reduces [a] t)
    (hu : 0 < u.numel) (j : t.Idx) :
    Host.reduce FloatOps.maximumf x (constant (F := Ideal) u .f32 0xFF800000#32) h' hu j
      = (Finset.univ : Finset (Fin (s.size a))).fold max ⊥ (x ∘ h.lift j) := by
  rw [Host.reduce_eq_fold_single FloatOps.maximumf x _ h' h hu]
  show Finset.fold max (Ideal.ofBits .f32 0xFF800000#32) _ _ = _
  rw [ofBits_neg_inf]

end Cert.Lib.MaxFold

end
-- ==== Proof.LibMinFold.lean ====
/- General facts about minima over a finite family of extended reals taken from the top, and about the two
   minimum-reductions that compute them: a vector minimum-reduction and a host minimum-reduction along one axis, each
   started from the pattern of +infinity; with two layout steps for columns. Nothing here depends on a particular
   program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MinFold

/-- The f32 pattern of +infinity denotes the top of the extended reals. -/
theorem ofBits_inf : Ideal.ofBits .f32 0x7F800000#32 = ⊤ := by
  simp [Ideal.ofBits, Ideal.ieee]

/-- An extended real lies below the minimum of a finite family taken from the top iff it lies below every member:
    the minimum by its universal property, with no order of folding in it. -/
theorem le_fold_min_univ {ι : Type} [Fintype ι] (f : ι → EReal) (x : EReal) :
    x ≤ (Finset.univ : Finset ι).fold min ⊤ f ↔ ∀ k, x ≤ f k := by
  rw [Finset.le_fold_min]
  simp

/-- Two extended reals with the same lower bounds are equal (so two minima described by `le_fold_min_univ` over the
    same members, however blocked, are equal). -/
theorem eq_of_le_iff {u v : EReal} (h : ∀ x, x ≤ u ↔ x ≤ v) : u = v :=
  le_antisymm ((h u).mp le_rfl) ((h v).mpr le_rfl)

/-- A vector minimum-reduction along ONE axis from the pattern of +infinity, read on the extended reals at a reduced
    index `j`: the minimum, from the top, over that axis's coordinates of the source at `j` with the coordinate
    inserted. The hypotheses are typed as a printed body's proof arguments are. -/
theorem minRed_apply {s t : Shape} {a : Fin s.rank} (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j
      = (Finset.univ : Finset (Fin (s.size a))).fold min ⊤ (src ∘ h.lift j) := by
  rw [multiReduction_minimumf_eq_fold]
  refine (h.fold_filter_drop_single FloatOps.minimumf _ src j).trans ?_
  show Finset.fold min (Ideal.ofBits .f32 0x7F800000#32) _ _ = _
  rw [ofBits_inf]

/-- The host's one-operand reduction with a minimum body along ONE axis from the constant +infinity, read on the
    extended reals at a reduced index `j`: the same minimum. -/
theorem hostMinRed_apply {s t u : Shape} {a : Fin s.rank} (x : FVec Ideal s .f32) (h' : s.ReducesTo [a] t) (h : s.Reduces [a] t)
    (hu : 0 < u.numel) (j : t.Idx) :
    Host.reduce FloatOps.minimumf x (constant (F := Ideal) u .f32 0x7F800000#32) h' hu j
      = (Finset.univ : Finset (Fin (s.size a))).fold min ⊤ (x ∘ h.lift j) := by
  rw [Host.reduce_eq_fold_single FloatOps.minimumf x _ h' h hu]
  show Finset.fold min (Ideal.ofBits .f32 0x7F800000#32) _ _ = _
  rw [ofBits_inf]

/-- A column `[a, 1]` broadcast along the lanes to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.MinFold

end
-- ==== Proof.Stage1Pay.lean ====
/- The first launch's body at one row of a block.

   From a block of 256 rows of the controller output, the whole weight, the bias row and the same 256 rows of the
   memory, the body forms the logits of each row (a contraction over the 1024 features plus the bias), shifts each
   row by its maximum and exponentiates, and stores per row the similarity of the specification and the row sum of
   the memory. Read at a row `p` of the block these are the specification's `simK` of that row's logits and memory
   row, and the plain sum of the memory row. -/
import proofs.«105674_j2783138808152_2_alg».proof.Proof.Gen.KernelIdeal.Skeleton
import proofs.«105674_j2783138808152_2_alg».proof.Proof.Result
import proofs.«105674_j2783138808152_2_alg».proof.Proof.LibPlainMatmul
import proofs.«105674_j2783138808152_2_alg».proof.Proof.LibBroadcastReads
import proofs.«105674_j2783138808152_2_alg».proof.Proof.LibMaxFold
import proofs.«105674_j2783138808152_2_alg».proof.Proof.LibMinFold
import Idealize.ShloMosaic.Lib.ValueIdx
import Idealize.ShloMosaic.Lib.ValueLayout
import Idealize.ShloMosaic.Lib.Pipeline.Value
import Idealize.ShloMosaic.PureOps.Ideal.Laws

noncomputable section

namespace Cert.ReadHead.Stage1

open Idealize.ShloMosaic Idealize.ShloMosaic.ValueIdx Cert.KernelIdeal Cert.KernelIdeal.Gen

variable (x0 : FVec Ideal S256x1024 .f32) (x1 : FVec Ideal S1024x4096 .bf16) (x2 : FVec Ideal S1x4096 .f32)
  (x3 : FVec Ideal S256x4096 .f32)

/-- The logit of row `p` of the block at column `c`: the contraction over the features, plus the bias at `c`. -/
def blockLogit (p : Fin 256) (c : Fin 4096) : EReal :=
  (∑ k : Fin 1024, x0 (ix2 p k) * x1 (ix2 k c)) + x2 (ix2 (0 : Fin 1) c)

/-- The body's array of logits: the matrix product into the zero accumulator plus the bias row broadcast down the rows. -/
def lgArr : FVec Ideal S256x4096 .f32 :=
  addf (matmul dot_S256x1024_S1024x4096_S256x4096_1_0_0_1_n_n none (truncf .bf16 x0 Facts₀.bitsLt_bf16_f32)
      (shapeCast S1024x4096 x1 Facts₀.shapeCasts_S1024x4096_S1024x4096) (constant S256x4096 .f32 0x00000000#32))
    (broadcastTo S256x4096 (shapeCast S1x4096 x2 Facts₀.shapeCasts_S1x4096_S1x4096) Facts₀.broadcasts_S1x4096_S256x4096)

/-- The array of logits read at (p, c). A change of format is the identity on extended reals, so the product's left
    operand is the controller block itself. -/
theorem lgArr_apply (p : Fin 256) (c : Fin 4096) : lgArr x0 x1 x2 (ix2 p c) = blockLogit x0 x1 x2 p c := by
  unfold lgArr blockLogit
  rw [addf_apply, shapeCast_self, shapeCast_self]
  refine congrArg₂ (· + ·) ?_ ?_
  · exact Cert.Lib.PlainMatmul.plain_matmul_zero_apply (truncf .bf16 x0 Facts₀.bitsLt_bf16_f32) x1 p c
  · exact broadcastTo_1b_ab_apply x2 _ p c

/-- The body's array of shifted exponentials: each logit minus its row's maximum, exponentiated. -/
def exArr : FVec Ideal S256x4096 .f32 :=
  exp (subf (lgArr x0 x1 x2) (broadcastTo S256x4096 (shapeCast S256x1
    (multiReduction .maximumf [1] S256 (lgArr x0 x1 x2) 0xFF800000#32 Facts₀.reduces_S256x4096_S256 (.inl rfl) rfl)
    Facts₀.shapeCasts_S256_S256x1) Facts₀.broadcasts_S256x1_S256x4096))

/-- The row maximum read at row `p`: the maximum from the bottom over the columns of the row's logits. -/
theorem rowMax_apply (p : Fin 256) :
    multiReduction .maximumf [1] S256 (lgArr x0 x1 x2) 0xFF800000#32 Facts₀.reduces_S256x4096_S256 (.inl rfl) rfl (ix1 p)
      = vmax (blockLogit x0 x1 x2 p) := by
  refine (Cert.Lib.MaxFold.maxRed_apply (lgArr x0 x1 x2) Facts₀.reduces_S256x4096_S256 (.inl rfl) rfl (ix1 p)).trans ?_
  unfold vmax
  refine congrArg (Finset.fold max ⊥ · Finset.univ) (funext fun k => ?_)
  refine Eq.trans (congrArg (lgArr x0 x1 x2) (funext fun a => Fin.ext ?_)) (lgArr_apply x0 x1 x2 p k)
  match a with
  | ⟨0, _⟩ => rfl
  | ⟨1, _⟩ => rfl

/-- The shifted exponentials read at (p, c): the specification's numerator of the softmax of row `p`. -/
theorem exArr_apply (p : Fin 256) (c : Fin 4096) : exArr x0 x1 x2 (ix2 p c) = shiftExp (blockLogit x0 x1 x2 p) c := by
  unfold exArr shiftExp
  show Ideal.exp (lgArr x0 x1 x2 (ix2 p c) - broadcastTo S256x4096 (shapeCast S256x1
    (multiReduction .maximumf [1] S256 (lgArr x0 x1 x2) 0xFF800000#32 Facts₀.reduces_S256x4096_S256 (.inl rfl) rfl)
    Facts₀.shapeCasts_S256_S256x1) Facts₀.broadcasts_S256x1_S256x4096 (ix2 p c)) = _
  rw [Cert.Lib.BroadcastReads.broadcastTo_a1_ab_apply, Cert.Lib.MinFold.shapeCast_a_a1_apply, rowMax_apply, lgArr_apply]

/-- A lane sum of a [256, 4096] array from the zero accumulator, read at row `p`. -/
theorem laneSum_apply (src : FVec Ideal S256x4096 .f32) (p : Fin 256) :
    multiReduction .add [1] S256 src 0x00000000#32 Facts₀.reduces_S256x4096_S256 (.inl rfl) rfl (ix1 p)
      = ∑ c : Fin 4096, src (ix2 p c) :=
  Cert.Lib.PlainMatmul.rowSum_apply src 0x00000000#32 Facts₀.reduces_S256x4096_S256 (.inl rfl) rfl p

/-- The stored row sums: at row `p` the sum of the memory row. -/
theorem pay1_apply (p : Fin 256) : k0_pay1 (F := Ideal) x3 (ix1 p) = ∑ c : Fin 4096, x3 (ix2 p c) :=
  laneSum_apply x3 p

/-- The body's stored similarities as one expression over the logits' exponentials and the memory block. -/
theorem pay2_eq : k0_pay2 (F := Ideal) x0 x1 x2 x3
    = subf (broadcast S256 (Scalar.ofBits .f32 0x00000000#32))
        (mulf (mulf (multiReduction .add [1] S256 (mulf (exArr x0 x1 x2) x3) 0x00000000#32 Facts₀.reduces_S256x4096_S256 (.inl rfl) rfl)
            (rsqrt (maximumf (multiReduction .add [1] S256 (mulf (exArr x0 x1 x2) (exArr x0 x1 x2)) 0x00000000#32 Facts₀.reduces_S256x4096_S256 (.inl rfl) rfl)
              (broadcast S256 (Scalar.ofBits .f32 0x2B8CBCCC#32)))))
          (rsqrt (maximumf (multiReduction .add [1] S256 (mulf x3 x3) 0x00000000#32 Facts₀.reduces_S256x4096_S256 (.inl rfl) rfl)
            (broadcast S256 (Scalar.ofBits .f32 0x2B8CBCCC#32))))) := rfl

/-- The stored similarities read at row `p`: the specification's kernel similarity of the row's logits and the
    memory row. -/
theorem pay2_apply (p : Fin 256) :
    k0_pay2 (F := Ideal) x0 x1 x2 x3 (ix1 p) = simK eps (blockLogit x0 x1 x2 p) (fun c => x3 (ix2 p c)) := by
  rw [pay2_eq]
  show Ideal.ofBits .f32 0x00000000#32
      - (multiReduction .add [1] S256 (mulf (exArr x0 x1 x2) x3) 0x00000000#32 Facts₀.reduces_S256x4096_S256 (.inl rfl) rfl (ix1 p)
          * Ideal.rsqrt (max (multiReduction .add [1] S256 (mulf (exArr x0 x1 x2) (exArr x0 x1 x2)) 0x00000000#32 Facts₀.reduces_S256x4096_S256 (.inl rfl) rfl (ix1 p))
              (Ideal.ofBits .f32 0x2B8CBCCC#32)))
        * Ideal.rsqrt (max (multiReduction .add [1] S256 (mulf x3 x3) 0x00000000#32 Facts₀.reduces_S256x4096_S256 (.inl rfl) rfl (ix1 p))
            (Ideal.ofBits .f32 0x2B8CBCCC#32)) = _
  rw [laneSum_apply, laneSum_apply, laneSum_apply, Ideal.ofBits_zero_f32]
  simp only [mulf_apply, exArr_apply]
  rfl

end Cert.ReadHead.Stage1

end
-- ==== Proof.Region0.lean ====
/- What the first launch leaves in its two result arrays.

   The launch visits 32 grid points; point `t` works on rows 256·t … 256·t + 255 of the controller output and of the
   memory, on the whole weight and on the bias row, and writes back rows 256·t … of the similarities and of the row
   sums. The blocks written back tile the two arrays, so each array ends as one function of the arrays the launch
   finds: row `r` holds the specification's similarity of that row, and the sum of the memory's row. -/
import proofs.«105674_j2783138808152_2_alg».proof.Proof.Gen.KernelIdeal.Frame
import proofs.«105674_j2783138808152_2_alg».proof.Proof.Stage1Pay
import Idealize.ShloMosaic.Lib.Pipeline.Value

set_option maxRecDepth 16384

noncomputable section

namespace Cert.ReadHead.Region0

open Idealize.ShloMosaic Idealize.ShloMosaic.TcCoe Idealize.ShloMosaic.ValueIdx Idealize.SL.Sem
open Idealize.ShloMosaic.Pipeline (Dat)
open Cert.KernelIdeal Cert.KernelIdeal.Gen

/-- The logit of row `r` at column `c` from the arrays as the launch finds them. -/
def rowLogit (co : FVec Ideal S8192x1024 .f32) (Wb : FVec Ideal S1024x4096 .bf16) (b2 : FVec Ideal S1x4096 .f32)
    (r : Fin 8192) (c : Fin 4096) : EReal :=
  (∑ k : Fin 1024, co (ix2 r k) * Wb (ix2 k c)) + b2 (ix2 (0 : Fin 1) c)

/-- The row of an index of a vector of 8192 entries. -/
abbrev rowOf (i : S8192.Idx) : Fin 8192 := i 0

/-- The array of similarities: row `r` holds the kernel's similarity of the row's logits and the memory's row. -/
def simArr (co : FVec Ideal S8192x1024 .f32) (Wb : FVec Ideal S1024x4096 .bf16) (b2 : FVec Ideal S1x4096 .f32)
    (mem : FVec Ideal S8192x4096 .f32) : FVec Ideal S8192 .f32 :=
  fun i => simK eps (rowLogit co Wb b2 (rowOf i)) (fun c => mem (ix2 (rowOf i) c))

/-- The array of row sums of the memory. -/
def sumArr (mem : FVec Ideal S8192x4096 .f32) : FVec Ideal S8192 .f32 :=
  fun i => ∑ c : Fin 4096, mem (ix2 (rowOf i) c)

/-- The body's similarity at row `p` of a block whose rows are rows `r` of the arrays. -/
theorem sim_point (x0 : FVec Ideal S256x1024 .f32) (x1 : FVec Ideal S1024x4096 .bf16) (x2 : FVec Ideal S1x4096 .f32)
    (x3 : FVec Ideal S256x4096 .f32) (co : FVec Ideal S8192x1024 .f32) (Wb : FVec Ideal S1024x4096 .bf16)
    (b2 : FVec Ideal S1x4096 .f32) (mem : FVec Ideal S8192x4096 .f32) (p : Fin 256) (r : Fin 8192)
    (h0 : ∀ k : Fin 1024, x0 (ix2 p k) = co (ix2 r k)) (h1 : ∀ (k : Fin 1024) (c : Fin 4096), x1 (ix2 k c) = Wb (ix2 k c))
    (h2 : ∀ c : Fin 4096, x2 (ix2 (0 : Fin 1) c) = b2 (ix2 (0 : Fin 1) c)) (h3 : ∀ c : Fin 4096, x3 (ix2 p c) = mem (ix2 r c)) :
    k0_pay2 (F := Ideal) x0 x1 x2 x3 (ix1 p) = simK eps (rowLogit co Wb b2 r) (fun c => mem (ix2 r c)) := by
  rw [Stage1.pay2_apply]
  unfold Stage1.blockLogit rowLogit
  simp only [h0, h1, h2, h3]

/-- The body's row sum at row `p` of a block whose rows are rows `r` of the memory. -/
theorem sum_point (x3 : FVec Ideal S256x4096 .f32) (mem : FVec Ideal S8192x4096 .f32) (p : Fin 256) (r : Fin 8192)
    (h3 : ∀ c : Fin 4096, x3 (ix2 p c) = mem (ix2 r c)) :
    k0_pay1 (F := Ideal) x3 (ix1 p) = ∑ c : Fin 4096, mem (ix2 r c) := by
  rw [Stage1.pay1_apply]
  simp only [h3]

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The printed index maps over the grid: the row-blocked windows are at block `t`, the resident ones at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 1) = t.val ∧ win0_5.index t (0 : Fin 1) = t.val :=
  (by decide +kernel : ∀ t : Fin grid0.N, _)

/-- Row `p` of the controller block at point `t` is row 256·t + p of the controller output. -/
theorem iblk_co (c : Dev nD) (t : Fin cfg0.N) (p : Fin 256) (k : Fin 1024) (r : Fin 8192) (hr : r.val = 256 * t.val + p.val) :
    (iblk0 V c 0 t : Vec Ideal S256x1024 .f32) (ix2 p k) = (V c main_arg1 : S8192x1024.Idx → EReal) (ix2 r k) := by
  obtain ⟨e00, e01, -⟩ := idx_facts t
  show V c main_arg1 (((cfg0.win 0).blk t).view.emb (ix2 p k)) = _
  refine congrArg _ (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- The weight block at every point is the whole weight. -/
theorem iblk_w (c : Dev nD) (t : Fin cfg0.N) (k : Fin 1024) (j : Fin 4096) :
    (iblk0 V c 1 t : Vec Ideal S1024x4096 .bf16) (ix2 k j) = (V c main_v0 : S1024x4096.Idx → EReal) (ix2 k j) := by
  obtain ⟨-, -, e10, e11, -⟩ := idx_facts t
  show V c main_v0 (((cfg0.win 1).blk t).view.emb (ix2 k j)) = _
  refine congrArg _ (funext fun a => Fin.ext ?_)
  match a with
  | ⟨0, _⟩ => show win0_1.index t (0 : Fin 2) * 1024 + 1 * k.val = k.val; omega
  | ⟨1, _⟩ => show win0_1.index t (1 : Fin 2) * 4096 + 1 * j.val = j.val; omega

/-- The bias block at every point is the whole bias row. -/
theorem iblk_b (c : Dev nD) (t : Fin cfg0.N) (j : Fin 4096) :
    (iblk0 V c 2 t : Vec Ideal S1x4096 .f32) (ix2 (0 : Fin 1) j) = (V c main_v1 : S1x4096.Idx → EReal) (ix2 (0 : Fin 1) j) := by
  obtain ⟨-, -, -, -, e20, e21, -⟩ := idx_facts t
  show V c main_v1 (((cfg0.win 2).blk t).view.emb (ix2 (0 : Fin 1) j)) = _
  refine congrArg _ (funext fun a => Fin.ext ?_)
  match a with
  | ⟨0, _⟩ => show win0_2.index t (0 : Fin 2) * 1 + 1 * 0 = 0; omega
  | ⟨1, _⟩ => show win0_2.index t (1 : Fin 2) * 4096 + 1 * j.val = j.val; omega

/-- Row `p` of the memory block at point `t` is row 256·t + p of the memory. -/
theorem iblk_mem (c : Dev nD) (t : Fin cfg0.N) (p : Fin 256) (j : Fin 4096) (r : Fin 8192) (hr : r.val = 256 * t.val + p.val) :
    (iblk0 V c 3 t : Vec Ideal S256x4096 .f32) (ix2 p j) = (V c main_arg0 : S8192x4096.Idx → EReal) (ix2 r j) := by
  obtain ⟨-, -, -, -, -, -, e30, e31, -⟩ := idx_facts t
  show V c main_arg0 (((cfg0.win 3).blk t).view.emb (ix2 p j)) = _
  refine congrArg _ (funext fun a => Fin.ext ?_)
  match a with
  | ⟨0, _⟩ => show win0_3.index t (0 : Fin 2) * 256 + 1 * p.val = r.val; omega
  | ⟨1, _⟩ => show win0_3.index t (1 : Fin 2) * 4096 + 1 * j.val = j.val; omega

/-- What point `t` writes back to the similarities is block `t` of the array of similarities. -/
theorem flushed4_eq (c : Dev nD) (t : Fin cfg0.N) :
    (dat0 V c).flushed 4 t = ((cfg0.win 4).blk t).view.read (Elt Ideal)
      (simArr (V c main_arg1) (V c main_v0) (V c main_v1) (V c main_arg0)) := by
  show (cfg0.win 4).cut (grid0.coords t) ((dat0 V c).after 4 t) = _
  rw [after0_4]
  unfold out0_4
  rw [View.canon_unit_zero hz1]
  simp only [View.ld_unit_zero (S := S256x1024) hz2, View.ld_unit_zero (S := S1024x4096) hz2,
    View.ld_unit_zero (S := S1x4096) hz2, View.ld_unit_zero (S := S256x4096) hz2]
  obtain ⟨-, -, -, -, -, -, -, -, e4, -⟩ := idx_facts t
  have hN : t.val < 32 := Nat.lt_of_lt_of_eq t.isLt (N_0 : cfg0.N = 32)
  funext y
  obtain ⟨p, rfl⟩ : ∃ p : Fin 256, y = ix1 p := ⟨y 0, eq_ix1 y⟩
  have hp := p.isLt
  refine (sim_point _ _ _ _ (V c main_arg1) (V c main_v0) (V c main_v1) (V c main_arg0) p ⟨256 * t.val + p.val, by omega⟩
    (fun k => iblk_co V c t p k _ rfl) (fun k j => iblk_w V c t k j) (fun j => iblk_b V c t j)
    (fun j => iblk_mem V c t p j _ rfl)).trans ?_
  show _ = simArr (V c main_arg1) (V c main_v0) (V c main_v1) (V c main_arg0) (((cfg0.win 4).blk t).view.emb (ix1 p))
  unfold simArr
  have hrow : rowOf (((cfg0.win 4).blk t).view.emb (ix1 p)) = ⟨256 * t.val + p.val, by omega⟩ :=
    Fin.ext (show win0_4.index t (0 : Fin 1) * 256 + 1 * p.val = 256 * t.val + p.val by omega)
  rw [hrow]

/-- What point `t` writes back to the row sums is block `t` of the array of row sums. -/
theorem flushed5_eq (c : Dev nD) (t : Fin cfg0.N) :
    (dat0 V c).flushed 5 t = ((cfg0.win 5).blk t).view.read (Elt Ideal) (sumArr (V c main_arg0)) := by
  show (cfg0.win 5).cut (grid0.coords t) ((dat0 V c).after 5 t) = _
  rw [after0_5]
  unfold out0_5
  rw [View.canon_unit_zero hz1]
  simp only [View.ld_unit_zero (S := S256x4096) hz2]
  obtain ⟨-, -, -, -, -, -, -, -, -, e5⟩ := idx_facts t
  have hN : t.val < 32 := Nat.lt_of_lt_of_eq t.isLt (N_0 : cfg0.N = 32)
  funext y
  obtain ⟨p, rfl⟩ : ∃ p : Fin 256, y = ix1 p := ⟨y 0, eq_ix1 y⟩
  have hp := p.isLt
  refine (sum_point _ (V c main_arg0) p ⟨256 * t.val + p.val, by omega⟩ (fun j => iblk_mem V c t p j _ rfl)).trans ?_
  show _ = sumArr (V c main_arg0) (((cfg0.win 5).blk t).view.emb (ix1 p))
  unfold sumArr
  have hrow : rowOf (((cfg0.win 5).blk t).view.emb (ix1 p)) = ⟨256 * t.val + p.val, by omega⟩ :=
    Fin.ext (show win0_5.index t (0 : Fin 1) * 256 + 1 * p.val = 256 * t.val + p.val by omega)
  rw [hrow]

/-- Row `i` of a result array lies in the block written back at point ⌊i / 256⌋. -/
theorem cover4 (i : S8192.Idx) : ∃ t : Fin cfg0.N, (cfg0.win 4).flush t = true ∧ i ∈ ((cfg0.win 4).blk t).view.set := by
  have hi : (i 0).val < 8192 := (i 0).isLt
  have hN : cfg0.N = 32 := N_0
  let t : Fin cfg0.N := ⟨(i 0).val / 256, by rw [hN]; omega⟩
  obtain ⟨-, -, -, -, -, -, -, -, e4, -⟩ := idx_facts t
  refine ⟨t, flush0_4 t, ?_⟩
  show i ∈ ((View.whole main_v2_0).slice (win0_4.rect t)).set
  rw [View.set_slice_whole, Rect.mem_set_unit]
  intro a
  match a with
  | ⟨0, _⟩ =>
    show win0_4.index t (0 : Fin 1) * 256 ≤ (i 0).val ∧ (i 0).val < win0_4.index t (0 : Fin 1) * 256 + 256
    have ht : t.val = (i 0).val / 256 := rfl
    omega

theorem cover5 (i : S8192.Idx) : ∃ t : Fin cfg0.N, (cfg0.win 5).flush t = true ∧ i ∈ ((cfg0.win 5).blk t).view.set := by
  have hi : (i 0).val < 8192 := (i 0).isLt
  have hN : cfg0.N = 32 := N_0
  let t : Fin cfg0.N := ⟨(i 0).val / 256, by rw [hN]; omega⟩
  obtain ⟨-, -, -, -, -, -, -, -, -, e5⟩ := idx_facts t
  refine ⟨t, flush0_5 t, ?_⟩
  show i ∈ ((View.whole main_v2_1).slice (win0_5.rect t)).set
  rw [View.set_slice_whole, Rect.mem_set_unit]
  intro a
  match a with
  | ⟨0, _⟩ =>
    show win0_5.index t (0 : Fin 1) * 256 ≤ (i 0).val ∧ (i 0).val < win0_5.index t (0 : Fin 1) * 256 + 256
    have ht : t.val = (i 0).val / 256 := rfl
    omega

/-- After the launch the array of similarities is `simArr` of the arrays the launch found. -/
theorem final4 (c : Dev nD) : (dat0 V c).arrAt 4 cfg0.N
    = simArr (V c main_arg1) (V c main_v0) (V c main_v1) (V c main_arg0) :=
  (dat0 V c).arrAt_eq_of_cover 4 _ (fun t _ => flushed4_eq V c t) cover4

/-- After the launch the array of row sums is `sumArr` of the memory. -/
theorem final5 (c : Dev nD) : (dat0 V c).arrAt 5 cfg0.N = sumArr (V c main_arg0) :=
  (dat0 V c).arrAt_eq_of_cover 5 _ (fun t _ => flushed5_eq V c t) cover5

end Cert.ReadHead.Region0

end
-- ==== Proof.Stage2Pay.lean ====
/- The second launch's body at one row.

   From the 8192 similarities and the 8192 row sums the body takes the maximum of the similarities, shifts and
   exponentiates them, divides each exponential by their sum and scales it by the row sum. Read at a row `r` this
   is the specification's softmax weight of the row among all similarities, times the row's sum. -/
import proofs.«105674_j2783138808152_2_alg».proof.Proof.Gen.KernelIdeal.Skeleton
import proofs.«105674_j2783138808152_2_alg».proof.Proof.Spec
import proofs.«105674_j2783138808152_2_alg».proof.Proof.LibPlainMatmul
import proofs.«105674_j2783138808152_2_alg».proof.Proof.LibMaxFold
import proofs.«105674_j2783138808152_2_alg».proof.Proof.LibMinFold
import Idealize.ShloMosaic.Lib.ValueIdx
import Idealize.ShloMosaic.Lib.ValueLayout
import Idealize.ShloMosaic.Lib.Pipeline.Value
import Idealize.ShloMosaic.PureOps.Ideal.Laws

noncomputable section

namespace Cert.ReadHead.Stage2

open Idealize.ShloMosaic Idealize.ShloMosaic.ValueIdx Cert.KernelIdeal Cert.KernelIdeal.Gen

variable (s : FVec Ideal S8192 .f32) (w : FVec Ideal S8192 .f32)

/-- An exponential of a vector at an index is the exponential of the entry. -/
theorem vexp_apply {sh : Shape} (v : FVec Ideal sh .f32) (i : sh.Idx) : exp v i = Ideal.exp (v i) := rfl

/-- The one entry of a [1] array seen as [1, 1] and extracted at (0, 0). -/
theorem extract_apply (x : FVec Ideal S1 .f32) :
    extractAt ![0, 0] (shapeCast S1x1 x Facts₀.shapeCasts_S1_S1x1) Facts₀.inpos_S1x1_p0_0 = x (ix1 (0 : Fin 1)) := by
  unfold extractAt
  refine Eq.trans (congrArg (shapeCast S1x1 x Facts₀.shapeCasts_S1_S1x1) (funext fun a => Fin.ext ?_))
    (Cert.Lib.MinFold.shapeCast_a_a1_apply x Facts₀.shapeCasts_S1_S1x1 (0 : Fin 1) (0 : Fin 1))
  match a with
  | ⟨0, _⟩ => rfl
  | ⟨1, _⟩ => rfl

/-- The maximum over all entries of a vector seen as one row: the maximum from the bottom over its entries. -/
theorem allMax_apply (v : FVec Ideal S8192 .f32) :
    multiReduction .maximumf [1] S1 (shapeCast S1x8192 v Facts₀.shapeCasts_S8192_S1x8192) 0xFF800000#32
        Facts₀.reduces_S1x8192_S1 (.inl rfl) rfl (ix1 (0 : Fin 1))
      = vmax (fun r : Fin 8192 => v (ix1 r)) := by
  refine (Cert.Lib.MaxFold.maxRed_apply (shapeCast S1x8192 v Facts₀.shapeCasts_S8192_S1x8192) Facts₀.reduces_S1x8192_S1
    (.inl rfl) rfl (ix1 (0 : Fin 1))).trans ?_
  unfold vmax
  refine congrArg (Finset.fold max ⊥ · Finset.univ) (funext fun k => ?_)
  refine Eq.trans (congrArg (shapeCast S1x8192 v Facts₀.shapeCasts_S8192_S1x8192) (funext fun a => Fin.ext ?_))
    (shapeCast_a_1a_apply v Facts₀.shapeCasts_S8192_S1x8192 (0 : Fin 1) k)
  match a with
  | ⟨0, _⟩ => rfl
  | ⟨1, _⟩ => rfl

/-- The sum over all entries of a vector seen as one row. -/
theorem allSum_apply (v : FVec Ideal S8192 .f32) :
    multiReduction .add [1] S1 (shapeCast S1x8192 v Facts₀.shapeCasts_S8192_S1x8192) 0x00000000#32
        Facts₀.reduces_S1x8192_S1 (.inl rfl) rfl (ix1 (0 : Fin 1))
      = ∑ r : Fin 8192, v (ix1 r) := by
  refine (Cert.Lib.PlainMatmul.rowSum_apply (shapeCast S1x8192 v Facts₀.shapeCasts_S8192_S1x8192) 0x00000000#32
    Facts₀.reduces_S1x8192_S1 (.inl rfl) rfl (0 : Fin 1)).trans ?_
  exact Finset.sum_congr rfl fun k _ => shapeCast_a_1a_apply v Facts₀.shapeCasts_S8192_S1x8192 (0 : Fin 1) k

/-- The body's shifted exponentials of the similarities. -/
def exVec : FVec Ideal S8192 .f32 :=
  exp (subf s (broadcast S8192 (extractAt ![0, 0] (shapeCast S1x1
    (multiReduction .maximumf [1] S1 (shapeCast S1x8192 s Facts₀.shapeCasts_S8192_S1x8192) 0xFF800000#32
      Facts₀.reduces_S1x8192_S1 (.inl rfl) rfl) Facts₀.shapeCasts_S1_S1x1) Facts₀.inpos_S1x1_p0_0)))

/-- They are the numerators of the softmax of the similarities. -/
theorem exVec_apply (r : Fin 8192) : exVec s (ix1 r) = shiftExp (fun r' : Fin 8192 => s (ix1 r')) r := by
  unfold exVec shiftExp
  rw [vexp_apply, subf_apply, broadcast_apply, extract_apply, allMax_apply]

/-- The body's stored value as one expression over the exponentials. -/
theorem pay_eq : k1_pay1 (F := Ideal) s w
    = mulf (divf (exVec s) (broadcast S8192 (extractAt ![0, 0] (shapeCast S1x1
        (multiReduction .add [1] S1 (shapeCast S1x8192 (exVec s) Facts₀.shapeCasts_S8192_S1x8192) 0x00000000#32
          Facts₀.reduces_S1x8192_S1 (.inl rfl) rfl) Facts₀.shapeCasts_S1_S1x1) Facts₀.inpos_S1x1_p0_0)))
      (shapeCast S8192 w Facts₀.shapeCasts_S8192_S8192) := by
  unfold k1_pay1 exVec
  simp only [shapeCast_self]

/-- The stored value at row `r`: the softmax weight of the row's similarity times the row's sum. -/
theorem pay_apply (r : Fin 8192) :
    k1_pay1 (F := Ideal) s w (ix1 r) = softmax (fun r' : Fin 8192 => s (ix1 r')) r * w (ix1 r) := by
  rw [pay_eq, shapeCast_self, mulf_apply, divf_apply, broadcast_apply, extract_apply, allSum_apply]
  unfold softmax
  simp only [exVec_apply]

end Cert.ReadHead.Stage2

end
-- ==== Proof.Region1.lean ====
/- What the second launch leaves in the result array.

   The launch has one grid point; each of its three windows is the whole array of 8192 entries. The body reads the
   similarities and the row sums as the launch finds them and writes back, at row `r`, the softmax weight of row
   `r` among all similarities times the row's sum. -/
import proofs.«105674_j2783138808152_2_alg».proof.Proof.Gen.KernelIdeal.Frame
import proofs.«105674_j2783138808152_2_alg».proof.Proof.Stage2Pay
import Idealize.ShloMosaic.Lib.Pipeline.Value

set_option maxRecDepth 16384

noncomputable section

namespace Cert.ReadHead.Region1

open Idealize.ShloMosaic Idealize.ShloMosaic.TcCoe Idealize.ShloMosaic.ValueIdx Idealize.SL.Sem
open Idealize.ShloMosaic.Pipeline (Dat)
open Cert.KernelIdeal Cert.KernelIdeal.Gen

/-- The row of an index of a vector of 8192 entries. -/
abbrev rowOf (i : S8192.Idx) : Fin 8192 := i 0

/-- The result array from the similarities `s` and the row sums `w`: the softmax weight times the row sum. -/
def outArr (s w : FVec Ideal S8192 .f32) : FVec Ideal S8192 .f32 :=
  fun i => softmax (fun r' : Fin 8192 => s (ix1 r')) (rowOf i) * w i

variable (V : (c : Dev nD) → (b : Ref sig .tc) → Buf (Elt Ideal) ((c : Thread nD τ).loc b))

theorem hz1 : (![0] : Fin 1 → Nat) = fun _ => 0 := funext fun a => by fin_cases a; rfl

/-- The printed index maps at the launch's points: every window is at block 0. -/
theorem idx_facts : ∀ t : Fin cfg1.N, win1_0.index t (0 : Fin 1) = 0 ∧ win1_1.index t (0 : Fin 1) = 0
    ∧ win1_2.index t (0 : Fin 1) = 0 :=
  (by decide +kernel : ∀ t : Fin grid1.N, _)

/-- The block of similarities at the launch's point is the whole array. -/
theorem iblk_s (c : Dev nD) (t : Fin cfg1.N) : (iblk1 V c 0 t : Vec Ideal S8192 .f32) = (V c main_v2_0 : S8192.Idx → EReal) := by
  obtain ⟨e0, -, -⟩ := idx_facts t
  funext y
  show V c main_v2_0 (((cfg1.win 0).blk t).view.emb y) = _
  refine congrArg _ (funext fun a => Fin.ext ?_)
  match a with
  | ⟨0, _⟩ => show win1_0.index t (0 : Fin 1) * 8192 + 1 * (y 0).val = (y 0).val; omega

/-- The block of row sums at the launch's point is the whole array. -/
theorem iblk_w (c : Dev nD) (t : Fin cfg1.N) : (iblk1 V c 1 t : Vec Ideal S8192 .f32) = (V c main_v2_1 : S8192.Idx → EReal) := by
  obtain ⟨-, e1, -⟩ := idx_facts t
  funext y
  show V c main_v2_1 (((cfg1.win 1).blk t).view.emb y) = _
  refine congrArg _ (funext fun a => Fin.ext ?_)
  match a with
  | ⟨0, _⟩ => show win1_1.index t (0 : Fin 1) * 8192 + 1 * (y 0).val = (y 0).val; omega

/-- What the launch's point writes back is the whole result array `outArr`, read through the point's block. -/
theorem flushed2_eq (c : Dev nD) (t : Fin cfg1.N) :
    (dat1 V c).flushed 2 t = ((cfg1.win 2).blk t).view.read (Elt Ideal) (outArr (V c main_v2_0) (V c main_v2_1)) := by
  show (cfg1.win 2).cut (grid1.coords t) ((dat1 V c).after 2 t) = _
  rw [after1_2]
  unfold out1_2
  rw [View.canon_unit_zero hz1]
  simp only [View.ld_unit_zero (S := S8192) hz1]
  rw [iblk_s, iblk_w]
  obtain ⟨-, -, e2⟩ := idx_facts t
  funext y
  obtain ⟨r, rfl⟩ : ∃ r : Fin 8192, y = ix1 r := ⟨y 0, eq_ix1 y⟩
  refine (Stage2.pay_apply (V c main_v2_0) (V c main_v2_1) r).trans ?_
  show _ = outArr (V c main_v2_0) (V c main_v2_1) (((cfg1.win 2).blk t).view.emb (ix1 r))
  have hemb : ((cfg1.win 2).blk t).view.emb (ix1 r) = ix1 r := funext fun a => Fin.ext (by
    match a with
    | ⟨0, _⟩ => show win1_2.index t (0 : Fin 1) * 8192 + 1 * r.val = r.val; omega)
  rw [hemb]
  rfl

/-- The one block covers the array. -/
theorem cover2 (i : S8192.Idx) : ∃ t : Fin cfg1.N, (cfg1.win 2).flush t = true ∧ i ∈ ((cfg1.win 2).blk t).view.set := by
  have hi : (i 0).val < 8192 := (i 0).isLt
  have hN : cfg1.N = 1 := N_1
  let t : Fin cfg1.N := ⟨0, by rw [hN]; omega⟩
  obtain ⟨-, -, e2⟩ := idx_facts t
  refine ⟨t, flush1_2 t, ?_⟩
  show i ∈ ((View.whole main_v3).slice (win1_2.rect t)).set
  rw [View.set_slice_whole, Rect.mem_set_unit]
  intro a
  match a with
  | ⟨0, _⟩ =>
    show win1_2.index t (0 : Fin 1) * 8192 ≤ (i 0).val ∧ (i 0).val < win1_2.index t (0 : Fin 1) * 8192 + 8192
    omega

/-- After the launch the result array is `outArr` of the similarities and row sums the launch found. -/
theorem final2 (c : Dev nD) : (dat1 V c).arrAt 2 cfg1.N = outArr (V c main_v2_0) (V c main_v2_1) :=
  (dat1 V c).arrAt_eq_of_cover 2 _ (fun t _ => flushed2_eq V c t) cover2

end Cert.ReadHead.Region1

end
-- ==== Proof.KernelValue.lean ====
/- The idealized kernel's result as one function of its four argument arrays.

   Before the first launch the host narrows the weight's format (the identity on extended reals) and lays the bias
   out as one row. The first launch then leaves the similarities and the memory's row sums, and the second launch
   turns them into the result: at row `r` the softmax weight of the row's similarity times the row's sum — the
   specification's kernel formula at the arguments. -/
import proofs.«105674_j2783138808152_2_alg».proof.Proof.KernelRun
import proofs.«105674_j2783138808152_2_alg».proof.Proof.Region0
import proofs.«105674_j2783138808152_2_alg».proof.Proof.Region1
import proofs.«105674_j2783138808152_2_alg».proof.Proof.Result
import Idealize.ShloMosaic.Lib.StableHlo.Run
import Idealize.ShloMosaic.Lib.ValueLayout

set_option maxRecDepth 16384

noncomputable section

namespace Cert.ReadHead.Kernel

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- The first launch finds the memory as launched. -/
theorem entry_mem (c : Dev nD) : V1 m ρ c main_arg0 = m ((c : Thread nD τ).loc main_arg0) := by
  show StableHlo.after hostOps0 (W0 m ρ c) (Proc.devRef .tc main_arg0) = _
  after_results

/-- The first launch finds the controller output as launched. -/
theorem entry_co (c : Dev nD) : V1 m ρ c main_arg1 = m ((c : Thread nD τ).loc main_arg1) := by
  show StableHlo.after hostOps0 (W0 m ρ c) (Proc.devRef .tc main_arg1) = _
  after_results

/-- The first launch finds the weight with its format narrowed. -/
theorem entry_w (c : Dev nD) : V1 m ρ c main_v0
    = (truncf .bf16 (m ((c : Thread nD τ).loc main_arg2) : S1024x4096.Idx → EReal) Facts₀.bitsLt_bf16_f32 : FVec Ideal S1024x4096 .bf16) := by
  show StableHlo.after hostOps0 (W0 m ρ c) (Proc.devRef .tc main_v0) = _
  after_results

/-- The first launch finds the bias laid out as one row. -/
theorem entry_b (c : Dev nD) : V1 m ρ c main_v1
    = shapeCast S1x4096 (m ((c : Thread nD τ).loc main_arg3) : S4096.Idx → EReal) Facts₀.shapeCasts_S4096_S1x4096 := by
  show StableHlo.after hostOps0 (W0 m ρ c) (Proc.devRef .tc main_v1) = _
  after_results
  rfl

/-- The logits the first launch computes are the specification's logits of the arguments: the narrowed weight is
    the weight, and the bias row at column `j` is the bias at `j`. -/
theorem logit_eq (c : Dev nD) :
    Region0.rowLogit (V1 m ρ c main_arg1) (V1 m ρ c main_v0) (V1 m ρ c main_v1)
      = logit (m ((c : Thread nD τ).loc main_arg1)) (m ((c : Thread nD τ).loc main_arg2)) (m ((c : Thread nD τ).loc main_arg3)) := by
  funext r j
  rw [entry_co, entry_w, entry_b]
  unfold Region0.rowLogit logit
  rw [shapeCast_a_1a_apply]
  rfl

/-- The arrays of the two launches and of the specification read at row `r`. -/
theorem outArr_apply (s w : FVec Ideal S8192 .f32) (r : Fin 8192) :
    Region1.outArr s w (ix1 r) = softmax (fun r' : Fin 8192 => s (ix1 r')) r * w (ix1 r) := rfl
theorem simArr_apply (co : FVec Ideal S8192x1024 .f32) (Wb : FVec Ideal S1024x4096 .bf16) (b2 : FVec Ideal S1x4096 .f32)
    (mem : FVec Ideal S8192x4096 .f32) (r : Fin 8192) :
    Region0.simArr co Wb b2 mem (ix1 r) = simK eps (Region0.rowLogit co Wb b2 r) (fun c => mem (ix2 r c)) := rfl
theorem sumArr_apply (mem : FVec Ideal S8192x4096 .f32) (r : Fin 8192) :
    Region0.sumArr mem (ix1 r) = ∑ c : Fin 4096, mem (ix2 r c) := rfl
theorem resultK_apply (mem : FVec Ideal S8192x4096 .f32) (co : FVec Ideal S8192x1024 .f32) (W : FVec Ideal S1024x4096 .f32)
    (b : FVec Ideal S4096 .f32) (r : Fin 8192) :
    resultK mem co W b (ix1 r) = outK eps (logit co W b) (fun r' c => mem (ix2 r' c)) r := rfl

/-- The second launch finds the similarities the first launch left. -/
theorem entry_sims (c : Dev nD) : V2 m ρ c main_v2_0
    = Region0.simArr (V1 m ρ c main_arg1) (V1 m ρ c main_v0) (V1 m ρ c main_v1) (V1 m ρ c main_arg0) :=
  (W2_arr m ρ c 4).trans (Region0.final4 (V1 m ρ) c)

/-- The second launch finds the row sums the first launch left. -/
theorem entry_sums (c : Dev nD) : V2 m ρ c main_v2_1 = Region0.sumArr (V1 m ρ c main_arg0) :=
  (W2_arr m ρ c 5).trans (Region0.final5 (V1 m ρ) c)

/-- The result array after both launches is the specification's kernel formula of the argument arrays. -/
theorem result_eq (c : Dev nD) : W3 m ρ c (Proc.devRef .tc main_v3)
    = resultK (m ((c : Thread nD τ).loc main_arg0)) (m ((c : Thread nD τ).loc main_arg1))
        (m ((c : Thread nD τ).loc main_arg2)) (m ((c : Thread nD τ).loc main_arg3)) := by
  refine (W3_arr m ρ c 2).trans ((Region1.final2 (V2 m ρ) c).trans ?_)
  rw [entry_sims, entry_sums]
  funext i
  obtain ⟨r, rfl⟩ : ∃ r : Fin 8192, i = ix1 r := ⟨i 0, eq_ix1 i⟩
  rw [outArr_apply, resultK_apply, sumArr_apply]
  unfold outK
  simp only [simArr_apply]
  rw [logit_eq, entry_mem]

/-- The idealized kernel's run: the result array ends at the specification's kernel formula of the arguments, and
    the arguments end as launched. -/
theorem run : θ_run defs (onTc (τ := τ) (main (F := Ideal))) ⟨m, fun _ => 0, ρ⟩ (fun r => ∀ c : Dev nD,
      r.2.mem ((c.tc : Thread nD τ).loc main_v3)
        = resultK (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Cert.ReadHead.Run.run_result m ρ)

end Cert.ReadHead.Kernel

end
-- ==== Proof.RefValue.lean ====
/- The reference program's result is the closed formula of the specification.

   The reference computes, operation by operation: the logits (a contraction over the 1024 features plus the bias
   broadcast down the rows); each row's maximum (a host maximum from -∞ along the columns, followed by a maximum with a
   broadcast -∞, which changes nothing: max ⊥ x = x); the exponentials of the shifted logits and their row sum (a host
   sum is the initial value, the zero pattern, plus the sum: 0 + Σ = Σ); the quotient, a softmax; the two
   normalizations (row sum of squares, maximum with the clamp, square root, quotient) of the softmax and of the memory;
   their product's row sum, negated: the similarity of the row. Over the rows: the maximum of the similarities (a host
   maximum from -∞ over the whole vector into a scalar, again followed by a maximum with -∞), the exponentials of the
   shifted similarities, their sum over all rows, the quotient: the row's weight; finally the row sum of the weight times
   the memory. Each stage is read at explicit coordinates (row r, column c) from the stages before it; the index maps of
   the broadcasts and sums are identified with the coordinate constructors axis by axis. -/
import proofs.«105674_j2783138808152_2_alg».proof.Proof.Gen.ReferenceIdeal.Read
import proofs.«105674_j2783138808152_2_alg».proof.Proof.Result
import proofs.«105674_j2783138808152_2_alg».proof.Proof.LibMaxFold
import Idealize.ShloMosaic.Lib.ValueIdx
import Idealize.ShloMosaic.PureOps.Ideal.Laws

noncomputable section

open Idealize.ShloMosaic Idealize.ShloMosaic.ValueIdx
open Cert.ReferenceIdeal Cert.ReferenceIdeal.Read Cert.Lib.MaxFold

namespace Cert.ReadHead.Ref

/-- The logits: the contraction over the 1024 features plus the bias, at row r and column c. -/
theorem logits_apply (x1 : FVec Ideal S8192x1024 .f32) (x2 : FVec Ideal S1024x4096 .f32) (x3 : FVec Ideal S4096 .f32)
    (r : Fin 8192) (c : Fin 4096) :
    val_main_v3 (F := Ideal) x1 x2 x3 (ix2 r c) = logit x1 x2 x3 r c := by
  rw [val_main_v3_apply, val_main_v0_apply, val_main_v2_apply, val_main_v1_apply]
  have el : ∀ k : Fin 1024, lidx_main_v0 (ix2 r c) k = ix2 r k := fun k =>
    funext fun a => Fin.ext (by match a with | ⟨0, _⟩ => rfl | ⟨1, _⟩ => rfl)
  have er : ∀ k : Fin 1024, ridx_main_v0 (ix2 r c) k = ix2 k c := fun k =>
    funext fun a => Fin.ext (by match a with | ⟨0, _⟩ => rfl | ⟨1, _⟩ => rfl)
  have eb : idx_main_v1 (idx_main_v2 (ix2 r c)) = ix1 c :=
    funext fun a => Fin.ext (by match a with | ⟨0, _⟩ => rfl)
  simp only [el, er, eb, Ideal.addf_def]
  rfl

/-- A host maximum from -∞ along the columns of an 8192 × 4096 array, read at row r: the maximum of the row. -/
theorem rowMax_read (y : FVec Ideal S8192x4096 .f32) (h' : S8192x4096.ReducesTo [1] S8192) (hu : 0 < S_.numel)
    (r : Fin 8192) :
    Host.reduce FloatOps.maximumf y (constant (F := Ideal) S_ .f32 0xFF800000#32) h' hu (ix1 r)
      = vmax fun c : Fin 4096 => y (ix2 r c) := by
  have hR : S8192x4096.Reduces [1] S8192 := by decide
  rw [hostMaxRed_apply y h' hR hu]
  unfold vmax
  refine congrArg (fun f : Fin 4096 → EReal => Finset.fold max ⊥ f Finset.univ) (funext fun c => ?_)
  show y (hR.lift (ix1 r) c) = y (ix2 r c)
  exact congrArg y (funext fun a => Fin.ext (by match a with | ⟨0, _⟩ => rfl | ⟨1, _⟩ => rfl))

/-- The row maximum of the logits: the host maximum from -∞ along the columns, then a maximum with -∞. -/
theorem rowmax_apply (x1 : FVec Ideal S8192x1024 .f32) (x2 : FVec Ideal S1024x4096 .f32) (x3 : FVec Ideal S4096 .f32)
    (r : Fin 8192) :
    val_main_v6 (F := Ideal) x1 x2 x3 (ix1 r) = vmax (logit x1 x2 x3 r) := by
  rw [val_main_v6_apply, val_main_v5_apply, val_main_cst_0_apply]
  unfold val_main_v4 val_main_cst
  rw [rowMax_read]
  simp only [Ideal.maximumf_def, Ideal.ofBits_def, ofBits_neg_inf, max_bot_left]
  exact congrArg vmax (funext fun c => logits_apply x1 x2 x3 r c)

/-- The exponential of the logit shifted by its row's maximum. -/
theorem ex_apply (x1 : FVec Ideal S8192x1024 .f32) (x2 : FVec Ideal S1024x4096 .f32) (x3 : FVec Ideal S4096 .f32)
    (r : Fin 8192) (c : Fin 4096) :
    val_main_v10 (F := Ideal) x1 x2 x3 (ix2 r c) = shiftExp (logit x1 x2 x3 r) c := by
  rw [val_main_v10_apply, val_main_v9_apply, val_main_v8_apply, val_main_v7_apply]
  have e : idx_main_v7 (idx_main_v8 (ix2 r c)) = ix1 r :=
    funext fun a => Fin.ext (by match a with | ⟨0, _⟩ => rfl)
  rw [e, rowmax_apply, logits_apply]
  simp only [Ideal.hostUnary_exp_def, Ideal.subf_def]
  rfl

/-- The row sum of the exponentials: the host sum from the zero pattern along the columns. -/
theorem sumex_apply (x1 : FVec Ideal S8192x1024 .f32) (x2 : FVec Ideal S1024x4096 .f32) (x3 : FVec Ideal S4096 .f32)
    (r : Fin 8192) :
    val_main_v11 (F := Ideal) x1 x2 x3 (ix1 r) = ∑ c : Fin 4096, shiftExp (logit x1 x2 x3 r) c := by
  rw [val_main_v11_apply, val_main_cst_1_apply, Ideal.ofBits_def, Ideal.ofBits_zero_f32, zero_add]
  refine Finset.sum_congr rfl fun c _ => ?_
  rw [← ex_apply]
  exact congrArg _ (funext fun a => Fin.ext (by match a with | ⟨0, _⟩ => rfl | ⟨1, _⟩ => rfl))

/-- The softmax of the logits along a row. -/
theorem kv_apply (x1 : FVec Ideal S8192x1024 .f32) (x2 : FVec Ideal S1024x4096 .f32) (x3 : FVec Ideal S4096 .f32)
    (r : Fin 8192) (c : Fin 4096) :
    val_main_v14 (F := Ideal) x1 x2 x3 (ix2 r c) = softmax (logit x1 x2 x3 r) c := by
  rw [val_main_v14_apply, val_main_v13_apply, val_main_v12_apply]
  have e : idx_main_v12 (idx_main_v13 (ix2 r c)) = ix1 r :=
    funext fun a => Fin.ext (by match a with | ⟨0, _⟩ => rfl)
  rw [e, sumex_apply, ex_apply]
  simp only [Ideal.hostDivf_def]
  rfl

/-- The row sum of squares of the softmax. -/
theorem sqkv_apply (x1 : FVec Ideal S8192x1024 .f32) (x2 : FVec Ideal S1024x4096 .f32) (x3 : FVec Ideal S4096 .f32)
    (r : Fin 8192) :
    val_main_v16 (F := Ideal) x1 x2 x3 (ix1 r)
      = ∑ c : Fin 4096, softmax (logit x1 x2 x3 r) c * softmax (logit x1 x2 x3 r) c := by
  rw [val_main_v16_apply, val_main_cst_2_apply, Ideal.ofBits_def, Ideal.ofBits_zero_f32, zero_add]
  refine Finset.sum_congr rfl fun c _ => ?_
  have e : idx_main_v16 (ix1 r) c = ix2 r c :=
    funext fun a => Fin.ext (by match a with | ⟨0, _⟩ => rfl | ⟨1, _⟩ => rfl)
  rw [e, val_main_v15_apply, kv_apply, Ideal.mulf_def]

/-- The softmax row divided by the square root of its clamped sum of squares. -/
theorem nkv_apply (x1 : FVec Ideal S8192x1024 .f32) (x2 : FVec Ideal S1024x4096 .f32) (x3 : FVec Ideal S4096 .f32)
    (r : Fin 8192) (c : Fin 4096) :
    val_main_v22 (F := Ideal) x1 x2 x3 (ix2 r c) = l2n eps (softmax (logit x1 x2 x3 r)) c := by
  rw [val_main_v22_apply, val_main_v21_apply, val_main_v20_apply, val_main_v19_apply, val_main_v17_apply,
    val_main_v18_apply, val_main_cst_3_apply]
  have e : idx_main_v17 (idx_main_v21 (ix2 r c)) = ix1 r :=
    funext fun a => Fin.ext (by match a with | ⟨0, _⟩ => rfl)
  rw [e, sqkv_apply, kv_apply]
  simp only [Ideal.hostDivf_def, Ideal.hostUnary_sqrt_def, Ideal.maximumf_def, Ideal.ofBits_def]
  rfl

/-- The row sum of squares of the memory. -/
theorem sqmem_apply (x0 : FVec Ideal S8192x4096 .f32) (r : Fin 8192) :
    val_main_v24 (F := Ideal) x0 (ix1 r) = ∑ c : Fin 4096, memAt x0 r c * memAt x0 r c := by
  rw [val_main_v24_apply, val_main_cst_4_apply, Ideal.ofBits_def, Ideal.ofBits_zero_f32, zero_add]
  refine Finset.sum_congr rfl fun c _ => ?_
  have e : idx_main_v24 (ix1 r) c = ix2 r c :=
    funext fun a => Fin.ext (by match a with | ⟨0, _⟩ => rfl | ⟨1, _⟩ => rfl)
  rw [e, val_main_v23_apply, Ideal.mulf_def]
  rfl

/-- The memory row divided by the square root of its clamped sum of squares. -/
theorem nmem_apply (x0 : FVec Ideal S8192x4096 .f32) (r : Fin 8192) (c : Fin 4096) :
    val_main_v30 (F := Ideal) x0 (ix2 r c) = l2n eps (memAt x0 r) c := by
  rw [val_main_v30_apply, val_main_v29_apply, val_main_v28_apply, val_main_v27_apply, val_main_v25_apply,
    val_main_v26_apply, val_main_cst_5_apply]
  have e : idx_main_v25 (idx_main_v29 (ix2 r c)) = ix1 r :=
    funext fun a => Fin.ext (by match a with | ⟨0, _⟩ => rfl)
  rw [e, sqmem_apply]
  simp only [Ideal.hostDivf_def, Ideal.hostUnary_sqrt_def, Ideal.maximumf_def, Ideal.ofBits_def]
  rfl

/-- The similarity of row r: minus the inner product of the two normalized rows. -/
theorem sims_apply (x0 : FVec Ideal S8192x4096 .f32) (x1 : FVec Ideal S8192x1024 .f32) (x2 : FVec Ideal S1024x4096 .f32)
    (x3 : FVec Ideal S4096 .f32) (r : Fin 8192) :
    val_main_v33 (F := Ideal) x0 x1 x2 x3 (ix1 r) = simR eps (logit x1 x2 x3 r) (memAt x0 r) := by
  rw [val_main_v33_apply, val_main_v32_apply, val_main_cst_6_apply, Ideal.ofBits_def, Ideal.ofBits_zero_f32, zero_add]
  simp only [Ideal.hostNegf_def, Ideal.negf_def]
  unfold simR
  refine congrArg Neg.neg (Finset.sum_congr rfl fun c _ => ?_)
  have e : idx_main_v32 (ix1 r) c = ix2 r c :=
    funext fun a => Fin.ext (by match a with | ⟨0, _⟩ => rfl | ⟨1, _⟩ => rfl)
  rw [e, val_main_v31_apply, nkv_apply, nmem_apply, Ideal.mulf_def]

/-- The similarities of all rows, as one family over the 8192 rows. -/
abbrev simsR (x0 : FVec Ideal S8192x4096 .f32) (x1 : FVec Ideal S8192x1024 .f32) (x2 : FVec Ideal S1024x4096 .f32)
    (x3 : FVec Ideal S4096 .f32) : Fin 8192 → EReal :=
  fun r' => simR eps (logit x1 x2 x3 r') (memAt x0 r')

/-- A sum over the index set of a vector is the sum over its one coordinate. -/
theorem sum_idx1 {n : Nat} (f : (⟨1, ![n]⟩ : Shape).Idx → EReal) : ∑ j, f j = ∑ k : Fin n, f (ix1 k) :=
  (Equiv.sum_comp (⟨fun k => ix1 k, fun j => j 0, fun _ => rfl, fun j => (eq_ix1 j).symm⟩ :
    Fin n ≃ (⟨1, ![n]⟩ : Shape).Idx) f).symm

/-- A host maximum from -∞ over all 8192 entries of a vector, into a scalar: the maximum of the entries. Every index
    reduces into the one scalar index, so the fold runs over the whole index set; the two maxima, over the index set and
    over the coordinate, have the same upper bounds. -/
theorem colMax_read (y : FVec Ideal S8192 .f32) (h' : S8192.ReducesTo [0] S_) (hu : 0 < S_.numel) (j : S_.Idx) :
    Host.reduce FloatOps.maximumf y (constant (F := Ideal) S_ .f32 0xFF800000#32) h' hu j
      = vmax fun k : Fin 8192 => y (ix1 k) := by
  rw [Host.reduce_eq_fold FloatOps.maximumf y _ h' hu j,
    Finset.filter_true_of_mem fun i _ => funext fun b => b.elim0]
  show Finset.fold max (Ideal.ofBits .f32 0xFF800000#32) y Finset.univ = _
  rw [ofBits_neg_inf]
  unfold vmax
  refine eq_of_forall_ge_iff fun c => ?_
  rw [fold_max_univ_le, fold_max_univ_le]
  exact ⟨fun h k => h (ix1 k), fun h i => (congrArg (fun z => y z ≤ c) (eq_ix1 i)).mpr (h (i 0))⟩

/-- The maximum of the similarities over the rows: the host maximum from -∞, then a maximum with -∞. -/
theorem simmax_apply (x0 : FVec Ideal S8192x4096 .f32) (x1 : FVec Ideal S8192x1024 .f32) (x2 : FVec Ideal S1024x4096 .f32)
    (x3 : FVec Ideal S4096 .f32) (j : S_.Idx) :
    val_main_v35 (F := Ideal) x0 x1 x2 x3 j = vmax (simsR x0 x1 x2 x3) := by
  rw [val_main_v35_apply, val_main_cst_8_apply]
  unfold val_main_v34 val_main_cst_7
  rw [colMax_read]
  simp only [Ideal.maximumf_def, Ideal.ofBits_def, ofBits_neg_inf, max_bot_left]
  exact congrArg vmax (funext fun r' => sims_apply x0 x1 x2 x3 r')

/-- The exponential of a row's similarity shifted by the maximum over the rows. -/
theorem rowex_apply (x0 : FVec Ideal S8192x4096 .f32) (x1 : FVec Ideal S8192x1024 .f32) (x2 : FVec Ideal S1024x4096 .f32)
    (x3 : FVec Ideal S4096 .f32) (r : Fin 8192) :
    val_main_v39 (F := Ideal) x0 x1 x2 x3 (ix1 r) = shiftExp (simsR x0 x1 x2 x3) r := by
  rw [val_main_v39_apply, val_main_v38_apply, val_main_v37_apply, val_main_v36_apply, simmax_apply, sims_apply]
  simp only [Ideal.hostUnary_exp_def, Ideal.subf_def]
  rfl

/-- The sum of those exponentials over the rows: the host sum from the zero pattern over the whole vector. -/
theorem rowsum_apply (x0 : FVec Ideal S8192x4096 .f32) (x1 : FVec Ideal S8192x1024 .f32) (x2 : FVec Ideal S1024x4096 .f32)
    (x3 : FVec Ideal S4096 .f32) (j : S_.Idx) :
    val_main_v40 (F := Ideal) x0 x1 x2 x3 j = ∑ r' : Fin 8192, shiftExp (simsR x0 x1 x2 x3) r' := by
  rw [val_main_v40_apply, val_main_cst_9_apply, Ideal.ofBits_def, Ideal.ofBits_zero_f32, zero_add, sum_idx1]
  exact Finset.sum_congr rfl fun r' _ => rowex_apply x0 x1 x2 x3 r'

/-- The weight of row r: its softmax among the similarities of all rows. -/
theorem weight_apply (x0 : FVec Ideal S8192x4096 .f32) (x1 : FVec Ideal S8192x1024 .f32) (x2 : FVec Ideal S1024x4096 .f32)
    (x3 : FVec Ideal S4096 .f32) (r : Fin 8192) :
    val_main_v43 (F := Ideal) x0 x1 x2 x3 (ix1 r) = softmax (simsR x0 x1 x2 x3) r := by
  rw [val_main_v43_apply, val_main_v42_apply, val_main_v41_apply, rowsum_apply, rowex_apply]
  simp only [Ideal.hostDivf_def]
  rfl

/-- The reference's result is the closed formula: at row r, the sum along the row of the memory scaled by the row's
    softmax weight among the similarities. -/
theorem reference_eq (x0 : FVec Ideal S8192x4096 .f32) (x1 : FVec Ideal S8192x1024 .f32) (x2 : FVec Ideal S1024x4096 .f32)
    (x3 : FVec Ideal S4096 .f32) :
    val_main_v47 (F := Ideal) x0 x1 x2 x3 = Cert.ReadHead.resultR x0 x1 x2 x3 := by
  funext i
  obtain ⟨r, rfl⟩ : ∃ r : Fin 8192, i = ix1 r := ⟨i 0, eq_ix1 i⟩
  rw [val_main_v47_apply, val_main_cst_10_apply, Ideal.ofBits_def, Ideal.ofBits_zero_f32, zero_add]
  show _ = outR eps (logit x1 x2 x3) (memAt x0) r
  unfold outR
  refine Finset.sum_congr rfl fun c _ => ?_
  have e1 : idx_main_v47 (ix1 r) c = ix2 r c :=
    funext fun a => Fin.ext (by match a with | ⟨0, _⟩ => rfl | ⟨1, _⟩ => rfl)
  have e2 : idx_main_v44 (idx_main_v45 (ix2 r c)) = ix1 r :=
    funext fun a => Fin.ext (by match a with | ⟨0, _⟩ => rfl)
  rw [e1, val_main_v46_apply, val_main_v45_apply, val_main_v44_apply, e2, weight_apply, Ideal.mulf_def]
  rfl

end Cert.ReadHead.Ref

end
-- ==== Proof.RowLaw.lean ====
/- Real rows: both programs compute the same real numbers.

   For real inputs every intermediate value of the two closed formulas is a real number, so the coercion from the
   reals to the extended reals can be pushed outward through maxima, exponentials, sums, products, square roots and
   quotients. What is left is an identity between real expressions, together with the observation that neither
   clamp of the sum of squares of a softmax binds: that sum is at least one over the square of the number of
   entries, which the hypothesis places above the clamping constant. -/
import proofs.«105674_j2783138808152_2_alg».proof.Proof.Spec

noncomputable section

open Idealize.ShloMosaic

namespace Cert.ReadHead

/-- The coercion of the reals into the extended reals commutes with a finite sum. -/
theorem coe_sum_finset {ι : Type} (s : Finset ι) (f : ι → ℝ) :
    (∑ c ∈ s, ((f c : ℝ) : EReal)) = ((∑ c ∈ s, f c : ℝ) : EReal) := by
  classical
  induction s using Finset.induction_on with
  | empty => simp
  | insert a s ha ih => rw [Finset.sum_insert ha, Finset.sum_insert ha, ih, EReal.coe_add]

/-- The coercion of the reals into the extended reals commutes with a sum over a finite type. -/
theorem coe_sum {ι : Type} [Fintype ι] (f : ι → ℝ) :
    (∑ c, ((f c : ℝ) : EReal)) = ((∑ c, f c : ℝ) : EReal) :=
  coe_sum_finset Finset.univ f

/-- The coercion commutes with the binary maximum. -/
theorem coe_max (a b : ℝ) : max ((a : ℝ) : EReal) ((b : ℝ) : EReal) = ((max a b : ℝ) : EReal) :=
  (EReal.coe_strictMono.monotone.map_max).symm

variable {ι κ : Type} [Fintype ι] [Fintype κ]

/-- The maximum of a real family over a nonempty finite type is attained: it is the coercion of an entry that
    dominates all others. -/
theorem vmax_coe [Nonempty ι] (l : ι → ℝ) :
    ∃ c₀, (∀ c, l c ≤ l c₀) ∧ vmax (fun c => ((l c : ℝ) : EReal)) = ((l c₀ : ℝ) : EReal) := by
  obtain ⟨c₀, -, hc₀⟩ := Finset.exists_max_image Finset.univ l Finset.univ_nonempty
  refine ⟨c₀, fun c => hc₀ c (Finset.mem_univ c), le_antisymm ?_ ?_⟩
  · exact (Finset.fold_max_le _).mpr
      ⟨bot_le, fun c _ => EReal.coe_le_coe_iff.mpr (hc₀ c (Finset.mem_univ c))⟩
  · exact (Finset.le_fold_max _).mpr (Or.inr ⟨c₀, Finset.mem_univ c₀, le_refl _⟩)

/-- The shifted exponentials of a real family are real numbers in the half-open interval from zero to one, and
    one of them equals one. -/
theorem shiftExp_coe [Nonempty ι] (l : ι → ℝ) :
    ∃ e : ι → ℝ, shiftExp (fun c => ((l c : ℝ) : EReal)) = (fun c => ((e c : ℝ) : EReal)) ∧
      (∀ c, 0 < e c) ∧ (∀ c, e c ≤ 1) ∧ ∃ c₀, e c₀ = 1 := by
  obtain ⟨c₀, hmax, hv⟩ := vmax_coe l
  refine ⟨fun c => Real.exp (l c - l c₀), ?_, fun c => Real.exp_pos _, fun c => ?_, c₀, ?_⟩
  · funext c
    rw [shiftExp, hv, ← EReal.coe_sub, Ideal.exp_coe]
  · exact Real.exp_le_one_iff.mpr (sub_nonpos.mpr (hmax c))
  · simp

/-- Sums of a family of reals in the half-open interval from zero to one that attains one: the sum lies between
    one and the number of entries, and the sum of squares is at least one. -/
theorem sums_bounds (e : ι → ℝ) (h0 : ∀ c, 0 < e c) (h1 : ∀ c, e c ≤ 1) (hc : ∃ c₀, e c₀ = 1) :
    1 ≤ ∑ c, e c ∧ ∑ c, e c ≤ (Fintype.card ι : ℝ) ∧ 1 ≤ ∑ c, e c * e c := by
  obtain ⟨c₀, hc₀⟩ := hc
  refine ⟨?_, ?_, ?_⟩
  · calc (1 : ℝ) = e c₀ := hc₀.symm
      _ ≤ ∑ c, e c := Finset.single_le_sum (f := e) (fun c _ => (h0 c).le) (Finset.mem_univ c₀)
  · calc ∑ c, e c ≤ ∑ _c : ι, (1 : ℝ) := Finset.sum_le_sum (fun c _ => h1 c)
      _ = (Fintype.card ι : ℝ) := by simp
  · calc (1 : ℝ) = e c₀ * e c₀ := by rw [hc₀, mul_one]
      _ ≤ ∑ c, e c * e c :=
        Finset.single_le_sum (f := fun c => e c * e c) (fun c _ => mul_self_nonneg (e c)) (Finset.mem_univ c₀)

/-- The reciprocal square root of a positive real. -/
theorem rsqrt_coe_pos (x : ℝ) (h : 0 < x) :
    Ideal.rsqrt ((x : ℝ) : EReal) = (((Real.sqrt x)⁻¹ : ℝ) : EReal) := by
  rw [Ideal.rsqrt_coe, if_neg (not_lt.mpr h.le), if_neg h.ne']

/-- The square root of a nonnegative real. -/
theorem sqrt_coe_nonneg (x : ℝ) (h : 0 ≤ x) :
    Ideal.sqrt ((x : ℝ) : EReal) = ((Real.sqrt x : ℝ) : EReal) := by
  rw [Ideal.sqrt_coe, if_neg (not_lt.mpr h)]

/-- The softmax of a family whose shifted exponentials are the reals `e`, with nonzero sum, is `e` over its sum. -/
theorem softmax_of_shiftExp (l : ι → EReal) (e : ι → ℝ)
    (he : shiftExp l = fun c => ((e c : ℝ) : EReal)) (hS : ∑ c, e c ≠ 0) :
    softmax l = fun c => ((e c / ∑ c', e c' : ℝ) : EReal) := by
  funext c
  simp only [softmax, he]
  rw [coe_sum, Ideal.div_coe hS, ← EReal.coe_mul, mul_one_div]

/-- A real family divided by the square root of its clamped sum of squares, when the clamped sum is positive. -/
theorem l2n_coe (ε : ℝ) (x : ι → ℝ) (h : 0 < max (∑ c, x c * x c) ε) :
    l2n (ε : EReal) (fun c => ((x c : ℝ) : EReal))
      = fun c => ((x c / Real.sqrt (max (∑ c', x c' * x c') ε) : ℝ) : EReal) := by
  funext c
  have hs : Real.sqrt (max (∑ c', x c' * x c') ε) ≠ 0 := (Real.sqrt_pos.mpr h).ne'
  simp only [l2n, ← EReal.coe_mul]
  rw [coe_sum, coe_max, sqrt_coe_nonneg _ h.le, Ideal.div_coe hs, ← EReal.coe_mul, mul_one_div]

/-- The kernel's similarity for real rows, when neither clamp of the exponentials' sum of squares binds. -/
theorem simK_of_shiftExp (ε : ℝ) (l : ι → EReal) (e μ : ι → ℝ)
    (he : shiftExp l = fun c => ((e c : ℝ) : EReal)) (hQε : ε ≤ ∑ c, e c * e c)
    (hQ : 0 < ∑ c, e c * e c) (hP : 0 < max (∑ c, μ c * μ c) ε) :
    simK (ε : EReal) l (fun c => ((μ c : ℝ) : EReal))
      = ((-((∑ c, e c * μ c) * (Real.sqrt (∑ c, e c * e c))⁻¹
            * (Real.sqrt (max (∑ c, μ c * μ c) ε))⁻¹) : ℝ) : EReal) := by
  simp only [simK, he, ← EReal.coe_mul]
  rw [coe_sum, coe_sum, coe_sum, coe_max, coe_max, max_eq_left hQε, rsqrt_coe_pos _ hQ, rsqrt_coe_pos _ hP,
    ← EReal.coe_mul, ← EReal.coe_mul, zero_sub, ← EReal.coe_neg]

/-- The identity in the reals behind the two similarities: dividing the exponentials by a positive number `S` first
    changes nothing once each row is normalized, provided the clamp of the rescaled sum of squares does not bind. -/
theorem real_sim_identity (ε : ℝ) (e μ : ι → ℝ) (S : ℝ) (hS : 0 < S)
    (hQε : ε * (S * S) ≤ ∑ c, e c * e c) (hQ : 0 < ∑ c, e c * e c) :
    ∑ c, (e c / S) / Real.sqrt (max (∑ c', (e c' / S) * (e c' / S)) ε)
          * (μ c / Real.sqrt (max (∑ c', μ c' * μ c') ε))
      = (∑ c, e c * μ c) * (Real.sqrt (∑ c, e c * e c))⁻¹ * (Real.sqrt (max (∑ c, μ c * μ c) ε))⁻¹ := by
  have h1 : ∑ c', (e c' / S) * (e c' / S) = (∑ c, e c * e c) / (S * S) := by
    rw [Finset.sum_div]
    exact Finset.sum_congr rfl (fun c _ => div_mul_div_comm _ _ _ _)
  have h2 : max ((∑ c, e c * e c) / (S * S)) ε = (∑ c, e c * e c) / (S * S) :=
    max_eq_left ((le_div_iff₀ (mul_pos hS hS)).mpr hQε)
  have h3 : Real.sqrt ((∑ c, e c * e c) / (S * S)) = Real.sqrt (∑ c, e c * e c) / S := by
    rw [Real.sqrt_div hQ.le, Real.sqrt_mul_self hS.le]
  rw [h1, h2, h3, Finset.sum_mul, Finset.sum_mul]
  refine Finset.sum_congr rfl (fun c _ => ?_)
  rw [div_div_div_cancel_right₀ hS.ne', div_eq_mul_inv, div_eq_mul_inv]
  ring

/-- For real rows the two similarities are the same real number. -/
theorem sim_coe [Nonempty ι] (ε : ℝ) (hε : 0 < ε) (hn : ε * (Fintype.card ι : ℝ) ^ 2 ≤ 1) (l μ : ι → ℝ) :
    ∃ s : ℝ,
      simK (ε : EReal) (fun c => ((l c : ℝ) : EReal)) (fun c => ((μ c : ℝ) : EReal)) = ((s : ℝ) : EReal) ∧
      simR (ε : EReal) (fun c => ((l c : ℝ) : EReal)) (fun c => ((μ c : ℝ) : EReal)) = ((s : ℝ) : EReal) := by
  obtain ⟨e, he, h0, h1, hc⟩ := shiftExp_coe l
  obtain ⟨hS1, hSn, hQ1⟩ := sums_bounds e h0 h1 hc
  have hS : 0 < ∑ c, e c := lt_of_lt_of_le one_pos hS1
  have hQ : 0 < ∑ c, e c * e c := lt_of_lt_of_le one_pos hQ1
  have hP : 0 < max (∑ c, μ c * μ c) ε := lt_of_lt_of_le hε (le_max_right _ _)
  -- the sum of the exponentials is at most the number of entries, so its square times the constant is at most one
  have hSS : (∑ c, e c) * (∑ c, e c) ≤ (Fintype.card ι : ℝ) ^ 2 := by
    rw [sq]; exact mul_le_mul hSn hSn hS.le (le_trans hS.le hSn)
  have hQε' : ε * ((∑ c, e c) * (∑ c, e c)) ≤ ∑ c, e c * e c :=
    le_trans (le_trans (mul_le_mul_of_nonneg_left hSS hε.le) hn) hQ1
  have hQε : ε ≤ ∑ c, e c * e c := by
    have : (1 : ℝ) ≤ (∑ c, e c) * (∑ c, e c) := one_le_mul_of_one_le_of_one_le hS1 hS1
    calc ε = ε * 1 := (mul_one ε).symm
      _ ≤ ε * ((∑ c, e c) * (∑ c, e c)) := mul_le_mul_of_nonneg_left this hε.le
      _ ≤ ∑ c, e c * e c := hQε'
  refine ⟨_, simK_of_shiftExp ε _ e μ he hQε hQ hP, ?_⟩
  -- the clamped sum of squares of the softmax is positive
  have hP' : 0 < max (∑ c, (e c / ∑ c', e c') * (e c / ∑ c', e c')) ε := lt_of_lt_of_le hε (le_max_right _ _)
  rw [simR, softmax_of_shiftExp _ e he hS.ne', l2n_coe ε _ hP', l2n_coe ε μ hP]
  simp only [← EReal.coe_mul]
  rw [coe_sum, ← EReal.coe_neg, real_sim_identity ε e μ _ hS hQε' hQ]

/-- For real inputs the reference's result equals the kernel's. -/
theorem outR_eq_outK [Nonempty ι] (ε : ℝ) (hε : 0 < ε) (hn : ε * (Fintype.card ι : ℝ) ^ 2 ≤ 1)
    (L M : κ → ι → ℝ) (r : κ) :
    outR (ε : EReal) (fun r c => ((L r c : ℝ) : EReal)) (fun r c => ((M r c : ℝ) : EReal)) r
      = outK (ε : EReal) (fun r c => ((L r c : ℝ) : EReal)) (fun r c => ((M r c : ℝ) : EReal)) r := by
  haveI : Nonempty κ := ⟨r⟩
  -- row by row the two similarities are the same real number
  choose s hsK hsR using fun r' => sim_coe ε hε hn (L r') (M r')
  -- so the two softmax weights over the rows are the same real number
  obtain ⟨e, he, h0, h1, hc⟩ := shiftExp_coe s
  have hS : 0 < ∑ r', e r' := lt_of_lt_of_le one_pos (sums_bounds e h0 h1 hc).1
  have hw := softmax_of_shiftExp _ e he hS.ne'
  simp only [outR, outK, hsK, hsR, hw, ← EReal.coe_mul]
  -- a real weight times each entry, summed, is the weight times the sum
  rw [coe_sum, coe_sum, ← EReal.coe_mul, Finset.mul_sum]

end Cert.ReadHead

end
-- ==== Proof.Finite.lean ====
/- Finiteness of the arguments, decoded from the printed precondition, and the clamp constant as a real.

   The precondition is a conjunction, over the four argument arrays, of "every entry has absolute value strictly below
   +∞". On the extended reals an entry x with max x (-x) < ⊤ is neither ⊤ nor ⊥, hence the coercion of the real number
   x.toReal; so each array is the coercion of a real-valued array. The clamp under the square roots is the
   single-precision pattern 0x2B8CBCCC: sign 0, exponent field 87, significand field 834764, that is
   (2^23 + 834764) · 2^(87 - 127 - 23) = 9223372 / 2^63. -/
import proofs.«105674_j2783138808152_2_alg».proof.Pre_finite_inputs
import proofs.«105674_j2783138808152_2_alg».proof.Proof.Result
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.ReadHead

/-- The f32 pattern of +infinity denotes the top of the extended reals. -/
theorem ofBits_pos_inf : Ideal.ofBits .f32 0x7F800000#32 = ⊤ := by
  simp [Ideal.ofBits, Ideal.ieee]

/-- An extended real whose absolute value max x (-x) is strictly below +∞ is the coercion of its real part: at ⊥ and at
    ⊤ the absolute value is ⊤, which is not below ⊤. -/
theorem real_of_abs_lt_inf (x : EReal)
    (h : Ideal.cmp .olt (max x (-x)) (Ideal.ofBits .f32 0x7F800000#32) = 1#1) :
    x = ((x.toReal : ℝ) : EReal) := by
  rw [ofBits_pos_inf] at h
  induction x using EReal.rec with
  | bot => simp [Ideal.cmp] at h
  | coe r => simp
  | top => simp [Ideal.cmp] at h

/-- The clamp constant is the real number 9223372 / 2^63 (the single-precision value nearest 10⁻¹²). -/
theorem eps_coe : Cert.ReadHead.eps = (((9223372 : ℝ) / 2 ^ 63 : ℝ) : EReal) := by
  simp [eps, Ideal.ofBits, Ideal.ieee]
  rw [← EReal.coe_mul, div_eq_mul_inv]

/-- The scalar shape has exactly one index. -/
instance : Subsingleton Cert.Pre_finite_inputs.S_.Idx := ⟨fun a b => funext fun d => d.elim0⟩

/-- One array of the precondition: if the conjunction over all its indices of "the absolute value is below +∞" is
    one, the array is the coercion of the array of its real parts. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1) :
    ∃ f : s.Idx → ℝ, x = fun i => ((f i : ℝ) : EReal) :=
  ⟨fun i => (x i).toReal, funext fun i => real_of_abs_lt_inf (x i) (Host.reduce_andi_all _ _ hr hu ix0 e i)⟩

/-- If the precondition holds of four extended-real arrays, each is the coercion of a real-valued array: the
    conjunction splits into its four all-index conjunctions, and each gives its array entry by entry. -/
theorem real_of_pre [Cert.Pre_finite_inputs.Facts]
    (x0 : FVec Ideal Cert.Pre_finite_inputs.S8192x4096 .f32) (x1 : FVec Ideal Cert.Pre_finite_inputs.S8192x1024 .f32)
    (x2 : FVec Ideal Cert.Pre_finite_inputs.S1024x4096 .f32) (x3 : FVec Ideal Cert.Pre_finite_inputs.S4096 .f32)
    (h : Cert.Pre_finite_inputs.fn (F := Ideal) x0 x1 x2 x3 = fun _ => 1#1) :
    (∃ f0 : Cert.Pre_finite_inputs.S8192x4096.Idx → ℝ, x0 = fun i => ((f0 i : ℝ) : EReal))
    ∧ (∃ f1 : Cert.Pre_finite_inputs.S8192x1024.Idx → ℝ, x1 = fun i => ((f1 i : ℝ) : EReal))
    ∧ (∃ f2 : Cert.Pre_finite_inputs.S1024x4096.Idx → ℝ, x2 = fun i => ((f2 i : ℝ) : EReal))
    ∧ (∃ f3 : Cert.Pre_finite_inputs.S4096.Idx → ℝ, x3 = fun i => ((f3 i : ℝ) : EReal)) := by
  have h0 := congrFun h ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all x0 _ _ _ h0', real_of_all x1 _ _ _ h1, real_of_all x2 _ _ _ h2, real_of_all x3 _ _ _ h3⟩

end Cert.ReadHead

end
-- ==== Proof.Bridge.lean ====
/- The two formulas agree on finite inputs.

   When the four argument arrays hold real numbers, every logit is a real number (a finite sum of products of reals
   plus a real), the memory's entries are reals, and the clamp is the positive real 9223372 / 2⁶³, which is at most
   1 / 4096²: the law of the rows then says that the reference's formula and the kernel's formula are the same
   extended real at every row. -/
import proofs.«105674_j2783138808152_2_alg».proof.Proof.RowLaw
import proofs.«105674_j2783138808152_2_alg».proof.Proof.Result
import proofs.«105674_j2783138808152_2_alg».proof.Proof.Finite

noncomputable section

open Idealize.ShloMosaic Idealize.ShloMosaic.ValueIdx

namespace Cert.ReadHead

/-- The logits of real arrays are reals: the contraction and the bias pushed under the coercion. -/
theorem logit_coe (f1 : (⟨2, ![8192, 1024]⟩ : Shape).Idx → ℝ) (f2 : (⟨2, ![1024, 4096]⟩ : Shape).Idx → ℝ)
    (f3 : (⟨1, ![4096]⟩ : Shape).Idx → ℝ) (r : Fin 8192) (c : Fin 4096) :
    logit (fun i => ((f1 i : ℝ) : EReal)) (fun i => ((f2 i : ℝ) : EReal)) (fun i => ((f3 i : ℝ) : EReal)) r c
      = (((∑ k : Fin 1024, f1 (ix2 r k) * f2 (ix2 k c)) + f3 (ix1 c) : ℝ) : EReal) := by
  unfold logit
  simp only [← EReal.coe_mul]
  rw [coe_sum, ← EReal.coe_add]

/-- The clamp is small enough for 4096 columns: ε · 4096² ≤ 1. -/
theorem eps_small : ((9223372 : ℝ) / 2 ^ 63) * ((Fintype.card (Fin 4096) : ℕ) : ℝ) ^ 2 ≤ 1 := by
  rw [Fintype.card_fin]
  norm_num

/-- On real-valued argument arrays the reference's result array is the kernel's. -/
theorem result_bridge (x0 : FVec Ideal ⟨2, ![8192, 4096]⟩ .f32) (x1 : FVec Ideal ⟨2, ![8192, 1024]⟩ .f32)
    (x2 : FVec Ideal ⟨2, ![1024, 4096]⟩ .f32) (x3 : FVec Ideal ⟨1, ![4096]⟩ .f32)
    (h0 : ∃ f0 : (⟨2, ![8192, 4096]⟩ : Shape).Idx → ℝ, x0 = fun i => ((f0 i : ℝ) : EReal))
    (h1 : ∃ f1 : (⟨2, ![8192, 1024]⟩ : Shape).Idx → ℝ, x1 = fun i => ((f1 i : ℝ) : EReal))
    (h2 : ∃ f2 : (⟨2, ![1024, 4096]⟩ : Shape).Idx → ℝ, x2 = fun i => ((f2 i : ℝ) : EReal))
    (h3 : ∃ f3 : (⟨1, ![4096]⟩ : Shape).Idx → ℝ, x3 = fun i => ((f3 i : ℝ) : EReal)) :
    resultR x0 x1 x2 x3 = resultK x0 x1 x2 x3 := by
  obtain ⟨f0, rfl⟩ := h0
  obtain ⟨f1, rfl⟩ := h1
  obtain ⟨f2, rfl⟩ := h2
  obtain ⟨f3, rfl⟩ := h3
  funext i
  unfold resultR resultK
  have hL : logit (fun i => ((f1 i : ℝ) : EReal)) (fun i => ((f2 i : ℝ) : EReal)) (fun i => ((f3 i : ℝ) : EReal))
      = fun r c => (((∑ k : Fin 1024, f1 (ix2 r k) * f2 (ix2 k c)) + f3 (ix1 c) : ℝ) : EReal) :=
    funext fun r => funext fun c => logit_coe f1 f2 f3 r c
  have hM : memAt (fun i => ((f0 i : ℝ) : EReal)) = fun r c => ((f0 (ix2 r c) : ℝ) : EReal) := rfl
  rw [hL, hM, eps_coe]
  exact outR_eq_outK (ι := Fin 4096) (κ := Fin 8192) ((9223372 : ℝ) / 2 ^ 63) (by norm_num) eps_small _ _ (i 0)

end Cert.ReadHead

end
-- ==== Proof.lean ====
/- The certificate's five claims.

   The kernel computes, for each of 8192 rows, the negated cosine similarity between the row's softmax numerators
   (exponentials of the logits shifted by their maximum) and the row of the memory, using reciprocal square roots of
   the clamped sums of squares; a second launch takes the softmax of the similarities over the rows and scales it by
   the memory's row sums. The reference normalizes the softmax itself and the memory row by the square roots of their
   clamped sums of squares, sums the products, takes the same softmax over the rows and sums the weighted memory row.
   On finite inputs the maximum of a row of logits is attained, so some exponential is 1 and none exceeds 1: neither
   clamp binds, the softmax denominator cancels under the normalization, and a real factor moves across a finite sum
   of reals. The three frames are the programs' runs; the idealization rewrote nothing. -/
import proofs.«105674_j2783138808152_2_alg».proof.Defs
import proofs.«105674_j2783138808152_2_alg».proof.Proof.Gen.Kernel
import proofs.«105674_j2783138808152_2_alg».proof.Proof.Gen.Kernel.Skeleton
import proofs.«105674_j2783138808152_2_alg».proof.Proof.Gen.Kernel.Launch
import proofs.«105674_j2783138808152_2_alg».proof.Proof.Gen.Kernel.Points
import proofs.«105674_j2783138808152_2_alg».proof.Proof.Gen.Kernel.Frame
import proofs.«105674_j2783138808152_2_alg».proof.Proof.Gen.KernelIdeal
import proofs.«105674_j2783138808152_2_alg».proof.Proof.Gen.KernelIdeal.Skeleton
import proofs.«105674_j2783138808152_2_alg».proof.Proof.Gen.KernelIdeal.Launch
import proofs.«105674_j2783138808152_2_alg».proof.Proof.Gen.KernelIdeal.Points
import proofs.«105674_j2783138808152_2_alg».proof.Proof.Gen.KernelIdeal.Frame
import proofs.«105674_j2783138808152_2_alg».proof.Proof.Gen.ReferenceIdeal
import proofs.«105674_j2783138808152_2_alg».proof.Proof.Gen.Pre_finite_inputs
import proofs.«105674_j2783138808152_2_alg».proof.Proof.Gen.ReferenceIdeal.Read
import proofs.«105674_j2783138808152_2_alg».proof.Proof.KernelValue
import proofs.«105674_j2783138808152_2_alg».proof.Proof.RefValue
import proofs.«105674_j2783138808152_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_k : Cert.frame_Kernel := fun m ρ _ => Cert.Kernel.Gen.frame m ρ

/-- The idealized kernel runs, and its arguments end unchanged. -/
theorem frame_ki : Cert.frame_KernelIdeal := fun m ρ _ => Cert.KernelIdeal.Gen.frame m ρ

/-- The idealized reference runs, and its arguments end unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the kernel's closed formula of the arguments: the kernel by its two launches, the
    reference by its own formula, which on finite arguments is the same extended real at every row. -/
theorem algebraic : Cert.algebraic_KernelIdeal_ReferenceIdeal := by
  intro m ρ m' ρ' hpre hagree
  refine ⟨fun c => Cert.ReadHead.resultK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.ReadHead.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReadHead.Ref.reference_eq, (hagree c).1, (hagree c).2.1,
    (hagree c).2.2.1, (hagree c).2.2.2]
  obtain ⟨h0, h1, h2, h3⟩ := Cert.ReadHead.real_of_pre _ _ _ _ (hpre c)
  exact Cert.ReadHead.result_bridge _ _ _ _ h0 h1 h2 h3

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
